-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S4x4096x4096 : Shape := ⟨3, ![4, 4096, 4096]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4x4096x512 .f32) (main_arg1 : FVec F S4x4096x4096 .f32) (main_arg2 : FVec F S512x512 .f32) (main_arg3 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4x4096x512 : Shape := ⟨3, ![4, 4096, 512]⟩
abbrev S4x4096x4096 : Shape := ⟨3, ![4, 4096, 4096]⟩
abbrev S512x512 : Shape := ⟨2, ![512, 512]⟩
abbrev S512 : Shape := ⟨1, ![512]⟩
abbrev S1x512 : Shape := ⟨2, ![1, 512]⟩
abbrev S1x4096x512 : Shape := ⟨3, ![1, 4096, 512]⟩
abbrev S1x512x512 : Shape := ⟨3, ![1, 512, 512]⟩
abbrev S1x512x4096 : Shape := ⟨3, ![1, 512, 4096]⟩
abbrev S2x4096x512 : Shape := ⟨3, ![2, 4096, 512]⟩
abbrev S4096x512 : Shape := ⟨2, ![4096, 512]⟩
abbrev S512x4096 : Shape := ⟨2, ![512, 4096]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S4x4096x4096, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S4x4096x512, .f32⟩
  | .local _ .vmem, ⟨0, _⟩ => ⟨S1x4096x512, .f32⟩
  | .local _ .vmem, ⟨1, _⟩ => ⟨S1x512x512, .f32⟩
  | .local _ .vmem, ⟨2, _⟩ => ⟨S1x512x512, .f32⟩
  | .local _ .vmem, ⟨3, _⟩ => ⟨S1x512x4096, .f32⟩
  | .local _ .vmem, ⟨4, _⟩ => ⟨S1x512x4096, .f32⟩
  | .local _ .vmem, ⟨5, _⟩ => ⟨S512x512, .f32⟩
  | .local _ .vmem, ⟨6, _⟩ => ⟨S1x512, .f32⟩
  | .local _ .vmem, ⟨7, _⟩ => ⟨S1x512x512, .f32⟩
  | .local _ .vmem, ⟨8, _⟩ => ⟨S1x512x512, .f32⟩
  | .local _ .vmem, ⟨9, _⟩ => ⟨S2x4096x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v5 : BitVec 1 := Scalar.cmpi .slt arg0 c3_i32
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg0 : BitVec 32 := BitVec.ofNat 32 (i 0).val
  let c1_i32_22 : BitVec 32 := 1#32
  let v35 : BitVec 32 := Scalar.addi arg0 c1_i32_22
  let c2_i32_23 : BitVec 32 := 2#32
  let c0_i32_24 : BitVec 32 := 0#32
  let v36 : BitVec 1 := Scalar.cmpi .eq c2_i32_23 c0_i32_24
  let c1_i32_25 : BitVec 32 := 1#32
  let v37 : BitVec 32 := Scalar.select v36 c1_i32_25 c2_i32_23
  let v38 : BitVec 32 := Scalar.remsi v35 v37
  let c0_i32_27 : BitVec 32 := 0#32
  let v40 : BitVec 1 := Scalar.cmpi .slt v38 c0_i32_27
  let c0_i32_28 : BitVec 32 := 0#32
  let v41 : BitVec 1 := Scalar.cmpi .slt v37 c0_i32_28
  let v42 : BitVec 1 := Scalar.xori v40 v41
  let c0_i32_26 : BitVec 32 := 0#32
  let v39 : BitVec 1 := Scalar.cmpi .ne v38 c0_i32_26
  let v43 : BitVec 1 := Scalar.andi v42 v39
  let v44 : BitVec 32 := Scalar.addi v38 v37
  let v45 : BitVec 32 := Scalar.select v43 v44 v38
  let v47 : Index := Scalar.indexCast v45
  let arg1 : BitVec 32 := BitVec.ofNat 32 (i 1).val
  let c512_i32 : BitVec 32 := 512#32
  let v46 : BitVec 32 := Scalar.muli arg1 c512_i32
  let v48 : Index := Scalar.indexCast v46
  let c0_29 : Index := 0#32
  ![v47.toNat, v48.toNat, 0]
def k0_off2 (i : grid0.Coords) : Fin 3 → Nat :=
  let arg0 : BitVec 32 := BitVec.ofNat 32 (i 0).val
  let c2_i32 : BitVec 32 := 2#32
  let c0_i32_5 : BitVec 32 := 0#32
  let v10 : BitVec 1 := Scalar.cmpi .eq c2_i32 c0_i32_5
  let c1_i32 : BitVec 32 := 1#32
  let v11 : BitVec 32 := Scalar.select v10 c1_i32 c2_i32
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : Index := Scalar.indexCast v19
  let c0_9 : Index := 0#32
  let c0_10 : Index := 0#32
  ![v20.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c3_i32 : BitVec 32 := 3#32
  let v1 : BitVec 32 := Scalar.minsi v0 c3_i32
  let c1_i32_0 : BitVec 32 := 1#32
  let v2 : BitVec 32 := Scalar.addi arg0 c1_i32_0
  let c4_i32 : BitVec 32 := 4#32
  let v3 : BitVec 1 := Scalar.cmpi .slt v2 c4_i32
  let c0_i32 : BitVec 32 := 0#32
  let v4 : BitVec 32 := Scalar.select v3 arg1 c0_i32
  let c0_i32_1 : BitVec 32 := 0#32
  let c0_i32_2 : BitVec 32 := 0#32
  ![v1.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S512_S1x512 : S512.ShapeCasts S1x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S512x512_S512x512_0_0 : ∀ a, (![0, 0] : Fin 2 → Nat) a + S512x512.size a ≤ S512x512.size a
  h_S512x512 : 0 < S512x512.numel
  inb_S2x4096x512_S1x4096x512_0_0_0 : ∀ a, (![0, 0, 0] : Fin 3 → Nat) a + S1x4096x512.size a ≤ S2x4096x512.size a
  shapeCasts_S4096x512_S1x4096x512 : S4096x512.ShapeCasts S1x4096x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S4096x512_S512x512_S4096x512_1_0_0_1_n_n_wf : DotDims.WF S4096x512 S512x512 S4096x512 [1] [0] [0] [1] [] []
  dot_S512x512_S512x512_S512x512_1_0_0_1_n_n_wf : DotDims.WF S512x512 S512x512 S512x512 [1] [0] [0] [1] [] []
  dot_S512x4096_S4096x512_S512x512_1_0_0_1_n_n_wf : DotDims.WF S512x4096 S4096x512 S512x512 [1] [0] [0] [1] [] []
  hrank0 : 0 < grid0.rank
  k0_off1_inb : ∀ i : grid0.Coords, ∀ (k0_h2 : k0_cond2 i = 1#1), ∀ a, (k0_off1 i) a + S1x512x512.size a ≤ S2x4096x512.size a
  k0_off2_inb : ∀ i : grid0.Coords, ∀ a, (k0_off2 i) a + S1x4096x512.size a ≤ S2x4096x512.size a
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S4x4096x512.size a
  hwx0_0 : ∀ i : grid0.Coords, EltTy.bits .f32 = 32 ∨ (Rect.block (s := S4x4096x512) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x4096x512.size a
  hwx0_1 : ∀ i : grid0.Coords, EltTy.bits .f32 = 32 ∨ (Rect.block (s := S4x4096x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S4x4096x4096.size a
  hwx0_2 : ∀ i : grid0.Coords, EltTy.bits .f32 = 32 ∨ (Rect.block (s := S4x4096x4096) S1x512x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S4x4096x512.size a
  hwx0_5 : ∀ i : grid0.Coords, EltTy.bits .f32 = 32 ∨ (Rect.block (s := S4x4096x512) S1x512x512.size (cc0_transform_5 i) (hinb0_5 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S1x4096x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S4x4096x4096 : Shape := ⟨3, ![4, 4096, 4096]⟩
abbrev S512x512 : Shape := ⟨2, ![512, 512]⟩
abbrev S512 : Shape := ⟨1, ![512]⟩
abbrev S1x1x512 : Shape := ⟨3, ![1, 1, 512]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x4096, .f32⟩
  | .hbm, ⟨2, _⟩ => ⟨S512x512, .f32⟩
  | .hbm, ⟨3, _⟩ => ⟨S512, .f32⟩
  | .hbm, ⟨4, _⟩ => ⟨S4x4096x512, .f32⟩
  | .hbm, ⟨5, _⟩ => ⟨S4x4096x512, .f32⟩
  | .hbm, ⟨6, _⟩ => ⟨S1x1x512, .f32⟩
  | .hbm, ⟨7, _⟩ => ⟨S4x4096x512, .f32⟩
  | .hbm, ⟨8, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  dot_S4x4096x512_S512x512_S4x4096x512_2_0_01_1_n_n_wf : DotDims.WF S4x4096x512 S512x512 S4x4096x512 [2] [0] [0, 1] [1] [] []
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_0_01_1_n_n : DotDims S4x4096x512 S512x512 S4x4096x512 where
  lhsContracting := [2]
  rhsContracting := [0]
  lhsNonContracting := [0, 1]
  rhsNonContracting := [1]
  lhsBatch := []
  rhsBatch := []
  wf := dot_S4x4096x512_S512x512_S4x4096x512_2_0_01_1_n_n_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.BodyW.lean ====
/-
  The kernel body at a symbolic grid point. The grid is (4 batches, 8 row tiles); at point (i, j) the body
    * if i = 0 and j = 0, fills slot 0 of its two-slot scratch with the whole product x[0] · W;
    * if i < 3, fills rows [512 j, 512 j + 512) of slot (i + 1) mod 2 with the product of rows of x[i + 1] and W;
    * always reads slot i mod 2 whole and stores adj-tile · slot + bias into the output tile.
  Only three combinations of the two conditions occur on the grid: both (the first point), the second alone (the other
  points of batches 0–2) and neither (batch 3). For each, one run of the body from the staged blocks and ANY scratch
  contents: the scratch ends at the stores written over what it held, the output tile at the last store's payload, every
  input tile as it was. What the whole-slot read sees is left as a read of those writes: the schedule of the slots is
  pure reasoning about lists of writes, done in the next module.
-/
import proofs.«104165_g71863392796808_cont_9to1_m_899_14_alg».proof.Proof.Gen.Kernel
import proofs.«104165_g71863392796808_cont_9to1_m_899_14_alg».proof.Proof.Gen.Kernel.Skeleton
import proofs.«104165_g71863392796808_cont_9to1_m_899_14_alg».proof.Proof.Gen.Kernel.Launch
import proofs.«104165_g71863392796808_cont_9to1_m_899_14_alg».proof.Proof.Gen.Kernel.Points
import Idealize.ShloMosaic.Lib.Writes
import Idealize.ShloMosaic.Lib.Pipeline.FrameBody
import Idealize.ShloMosaic.Lib.Tactic

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The two computed offsets in closed form -/

/-- The slab store goes to slot (i + 1) mod 2, rows from 512 j. -/
theorem k0_off1_eq : ∀ i : grid0.Coords, k0_off1 i = ![((i 0).val + 1) % 2, 512 * (i 1).val, 0] := by decide +kernel
instance closedOff_k0_off1 (i : grid0.Coords) : ClosedOff (k0_off1 i) := ⟨![((i 0).val + 1) % 2, 512 * (i 1).val, 0], k0_off1_eq i⟩
/-- The whole-slot read is of slot i mod 2. -/
theorem k0_off2_eq : ∀ i : grid0.Coords, k0_off2 i = ![(i 0).val % 2, 0, 0] := by decide +kernel
instance closedOff_k0_off2 (i : grid0.Coords) : ClosedOff (k0_off2 i) := ⟨![(i 0).val % 2, 0, 0], k0_off2_eq i⟩

/-! ## Conditions, rectangles, pieces -/

/-- The scratch memref: two slots of 4096 × 512, whole. -/
abbrev scrM : Memref sig .tc .vmem S2x4096x512 .f32 := Memref.whole cc0_scratch0

/-- "i = 0 and j = 0" and "i < 3", as the body computes them. -/
abbrev IsFirst (t : Fin cfg0.N) : Prop :=
  Scalar.cmpi .ne (Scalar.extui (Scalar.andi (Scalar.cmpi .eq (BitVec.ofNat 32 ((grid0.coords t) 0).val) 0#32) (Scalar.cmpi .eq (BitVec.ofNat 32 ((grid0.coords t) 1).val) 0#32))) 0#32 = 1#1
abbrev IsPipe (t : Fin cfg0.N) : Prop := k0_cond2 (grid0.coords t) = 1#1

/-- The whole-block rectangles the staged tiles are read and written through. -/
abbrev r2 : Rect S1x4096x512 := Rect.unit (s := S1x4096x512) ![0, 0, 0] S1x4096x512.size inb_S1x4096x512_S1x4096x512_0_0_0
abbrev r3 : Rect S1x512x512 := Rect.unit (s := S1x512x512) ![0, 0, 0] S1x512x512.size inb_S1x512x512_S1x512x512_0_0_0
abbrev r4 : Rect S1x512x4096 := Rect.unit (s := S1x512x4096) ![0, 0, 0] S1x512x4096.size inb_S1x512x4096_S1x512x4096_0_0_0
abbrev r5 : Rect S512x512 := Rect.unit (s := S512x512) ![0, 0] S512x512.size inb_S512x512_S512x512_0_0
abbrev r6 : Rect S1x512 := Rect.unit (s := S1x512) ![0, 0] S1x512.size inb_S1x512_S1x512_0_0
/-- Slot 0 whole; the slab the point fills; the slot the point reads. -/
abbrev R0 : Rect S2x4096x512 := Rect.unit (s := S2x4096x512) ![0, 0, 0] S1x4096x512.size inb_S2x4096x512_S1x4096x512_0_0_0
abbrev R1 (t : Fin cfg0.N) (hP : IsPipe t) : Rect S2x4096x512 :=
  Rect.unit (s := S2x4096x512) (k0_off1 (grid0.coords t)) S1x512x512.size (k0_off1_inb (grid0.coords t) hP)
abbrev R2 (t : Fin cfg0.N) : Rect S2x4096x512 :=
  Rect.unit (s := S2x4096x512) (k0_off2 (grid0.coords t)) S1x4096x512.size (k0_off2_inb (grid0.coords t))

/-- The store of x[0] · W into slot 0, and of a slab of x[i + 1] · W, as pieces. -/
abbrev proP (x0 : Vec F S1x4096x512 .f32) (w : Vec F S512x512 .f32) : View.Piece (Elt F) S2x4096x512 .f32 :=
  ⟨R0, k0_pay1 (View.ld x0 r2) (View.ld w r5)⟩
abbrev slabP (t : Fin cfg0.N) (hP : IsPipe t) (xs : Vec F S1x512x512 .f32) (w : Vec F S512x512 .f32) : View.Piece (Elt F) S2x4096x512 .f32 :=
  ⟨R1 t hP, k0_pay2 (View.ld xs r3) (View.ld w r5)⟩

/-- What the whole-slot read sees of scratch contents `f`. -/
abbrev supRead (t : Fin cfg0.N) (f : scrM.view.ty.Contents (Elt F)) : Vec F S1x4096x512 .f32 :=
  View.readAt (Elt F) scrM.view (R2 t).toLoadRect f

/-- The output tile: adj-tile · slot + bias, as the one store leaves it. -/
abbrev outv (aj : Vec F S1x512x4096 .f32) (sup : Vec F S1x4096x512 .f32) (bs : Vec F S1x512 .f32) : Vec F S1x512x512 .f32 :=
  View.canon [⟨r3, k0_pay3 (View.ld aj r4) sup (View.ld bs r6)⟩]

omit [FloatOps F] in
theorem cover_out (p : Vec F S1x512x512 .f32) (y : S1x512x512.Idx) : ∃ pc ∈ ([⟨r3, p⟩] : List (View.Piece (Elt F) S1x512x512 .f32)), y ∈ pc.1.set :=
  View.cover_of_tiled [⟨r3, p⟩] S1x512x512.size (by rfl) y

section Runs

variable (c : Dev nD) (t : Fin cfg0.N)
  (M2 : Memref sig .tc .vmem S1x4096x512 .f32) (h2 : M2.IsWhole) (M3 : Memref sig .tc .vmem S1x512x512 .f32) (h3 : M3.IsWhole)
  (M4 : Memref sig .tc .vmem S1x512x4096 .f32) (h4 : M4.IsWhole) (M5 : Memref sig .tc .vmem S512x512 .f32) (h5 : M5.IsWhole)
  (M6 : Memref sig .tc .vmem S1x512 .f32) (h6 : M6.IsWhole) (M7 : Memref sig .tc .vmem S1x512x512 .f32) (h7 : M7.IsWhole)
  (x0 : Vec F S1x4096x512 .f32) (xs : Vec F S1x512x512 .f32) (aj : Vec F S1x512x4096 .f32) (w : Vec F S512x512 .f32) (bs : Vec F S1x512 .f32)
  (fa : scrM.view.ty.Contents (Elt F))

local notation "BODY" => cc0__gcn_kernel (grid0.coords t) M2 h2 M3 h3 M4 h4 M5 h5 M6 h6 M7 h7 (Memref.whole cc0_scratch0) (Memref.isWhole_whole _)
local notation "INS" => iprop(owns (c : Thread nD τ) M2 fullShare x0 ∗ owns (c : Thread nD τ) M3 fullShare xs ∗ owns (c : Thread nD τ) M4 fullShare aj
      ∗ owns (c : Thread nD τ) M5 fullShare w ∗ owns (c : Thread nD τ) M6 fullShare bs)
local notation "SCR" f => (scrM.view.loc (c : Thread nD τ) ↦[scrM.view.set]{fullShare} f)

/-- The first point: slot 0 filled whole, then the first slab of slot 1; the read is of those writes. -/
theorem run_first (hF : IsFirst t) (hP : IsPipe t) (Q : PUnit → sProp 𝕄) :
    iprop(INS ∗ (∃ d, owns (c : Thread nD τ) M7 fullShare d) ∗ (SCR fa)
      ∗ (iprop(INS ∗ owns (c : Thread nD τ) M7 fullShare (outv aj (supRead t (scrM.view.writes (Elt F) fa [slabP t hP xs w, proP x0 w])) bs)
          ∗ (SCR (scrM.view.writes (Elt F) fa [slabP t hP xs w, proP x0 w]))) -∗ Q ⟨⟩))
      ⊢ wp frame (wpE (defs₀ (F := F)) Variants.none c none) Set.univ BODY Q := by
  unfold owns
  iintro ⟨⟨⟨%f2, %hf2, H2⟩, ⟨%f3, %hf3, H3⟩, ⟨%f4, %hf4, H4⟩, ⟨%f5, %hf5, H5⟩, ⟨%f6, %hf6, H6⟩⟩, ⟨%d7, %f7, %hf7, H7⟩, Ha, Hk⟩
  subst hf2 hf3 hf4 hf5 hf6
  sl_exec! (disch := assumption)
  sl_step
  iapply Hk
  isplitl [H2 H3 H4 H5 H6]
  · isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [H7]; · iexists _; isplitr; swap; (· iexact H7); ipureintro; exact View.read_writes_eq_canon _ _ _ (cover_out _)
  iexact Ha

/-- A later point of batches 0–2: one slab of the other slot filled; the read is of that write over what the scratch held. -/
theorem run_mid (hF : ¬ IsFirst t) (hP : IsPipe t) (Q : PUnit → sProp 𝕄) :
    iprop(INS ∗ (∃ d, owns (c : Thread nD τ) M7 fullShare d) ∗ (SCR fa)
      ∗ (iprop(INS ∗ owns (c : Thread nD τ) M7 fullShare (outv aj (supRead t (scrM.view.writes (Elt F) fa [slabP t hP xs w])) bs)
          ∗ (SCR (scrM.view.writes (Elt F) fa [slabP t hP xs w]))) -∗ Q ⟨⟩))
      ⊢ wp frame (wpE (defs₀ (F := F)) Variants.none c none) Set.univ BODY Q := by
  unfold owns
  iintro ⟨⟨⟨%f2, %hf2, H2⟩, ⟨%f3, %hf3, H3⟩, ⟨%f4, %hf4, H4⟩, ⟨%f5, %hf5, H5⟩, ⟨%f6, %hf6, H6⟩⟩, ⟨%d7, %f7, %hf7, H7⟩, Ha, Hk⟩
  subst hf2 hf3 hf4 hf5 hf6
  sl_exec! (disch := assumption)
  sl_step
  iapply Hk
  isplitl [H2 H3 H4 H5 H6]
  · isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [H7]; · iexists _; isplitr; swap; (· iexact H7); ipureintro; exact View.read_writes_eq_canon _ _ _ (cover_out _)
  iexact Ha

/-- A point of batch 3: the scratch is only read. -/
theorem run_last (hF : ¬ IsFirst t) (hP : ¬ IsPipe t) (Q : PUnit → sProp 𝕄) :
    iprop(INS ∗ (∃ d, owns (c : Thread nD τ) M7 fullShare d) ∗ (SCR fa)
      ∗ (iprop(INS ∗ owns (c : Thread nD τ) M7 fullShare (outv aj (supRead t fa) bs) ∗ (SCR fa)) -∗ Q ⟨⟩))
      ⊢ wp frame (wpE (defs₀ (F := F)) Variants.none c none) Set.univ BODY Q := by
  unfold owns
  iintro ⟨⟨⟨%f2, %hf2, H2⟩, ⟨%f3, %hf3, H3⟩, ⟨%f4, %hf4, H4⟩, ⟨%f5, %hf5, H5⟩, ⟨%f6, %hf6, H6⟩⟩, ⟨%d7, %f7, %hf7, H7⟩, Ha, Hk⟩
  subst hf2 hf3 hf4 hf5 hf6
  sl_exec! (disch := assumption)
  sl_step
  iapply Hk
  isplitl [H2 H3 H4 H5 H6]
  · isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [H7]; · iexists _; isplitr; swap; (· iexact H7); ipureintro; exact View.read_writes_eq_canon _ _ _ (cover_out _)
  iexact Ha

end Runs

end Cert.Proof.Kernel

end
-- ==== Proof.SchedW.lean ====
/-
  The schedule of the two-slot scratch, as pure statements about lists of writes (generic in the float instance).

  Point t = 8 i + j of the 32-point grid (batch i, row tile j). The first point fills slot 0 with x[0] · W; every
  point with i < 3 fills rows [512 j, 512 j + 512) of slot (i + 1) mod 2 with rows of x[i + 1] · W. A slab written at
  point t' is next overwritten at point t' + 16 (two batches later, same slot, same rows); the first point's slot 0 is
  next overwritten at point 8. So, between points, the scratch satisfies: every slab written at t' < k, k ≤ t' + 16, still
  reads as written; and for 1 ≤ k ≤ 8 slot 0 reads as the first point left it. From this the whole-slot read at point t
  (slot i mod 2) is a definite array: the first point's product when i = 0, else the eight slabs written during batch
  i − 1, stacked.
-/
import proofs.«104165_g71863392796808_cont_9to1_m_899_14_alg».proof.Proof.BodyW
import Idealize.ShloMosaic.Lib.WritesUnit
import Idealize.ShloMosaic.Lib.Pipeline.Frame
import Idealize.ShloMosaic.Lib.ValueIdx

set_option maxRecDepth 16384

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the kernel region finds them -/

/-- The buffers when the region is entered: after the one host operation (the bias reshaped to one row). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Points, conditions and offsets by the point's number -/

theorem coords_eq : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)
theorem isFirst_iff : ∀ t : Fin cfg0.N, IsFirst t ↔ t.val = 0 :=
  (by decide +kernel : ∀ t : Fin grid0.N, (Scalar.cmpi .ne (Scalar.extui (Scalar.andi (Scalar.cmpi .eq (BitVec.ofNat 32 ((grid0.coords t) 0).val) 0#32) (Scalar.cmpi .eq (BitVec.ofNat 32 ((grid0.coords t) 1).val) 0#32))) 0#32 = 1#1) ↔ t.val = 0)
theorem isPipe_iff : ∀ t : Fin cfg0.N, IsPipe t ↔ t.val < 24 :=
  (by decide +kernel : ∀ t : Fin grid0.N, k0_cond2 (grid0.coords t) = 1#1 ↔ t.val < 24)
theorem off1_t : ∀ t : Fin cfg0.N, k0_off1 (grid0.coords t) = ![(t.val / 8 + 1) % 2, 512 * (t.val % 8), 0] :=
  (by decide +kernel : ∀ t : Fin grid0.N, k0_off1 (grid0.coords t) = ![(t.val / 8 + 1) % 2, 512 * (t.val % 8), 0])
theorem off2_t : ∀ t : Fin cfg0.N, k0_off2 (grid0.coords t) = ![(t.val / 8) % 2, 0, 0] :=
  (by decide +kernel : ∀ t : Fin grid0.N, k0_off2 (grid0.coords t) = ![(t.val / 8) % 2, 0, 0])

theorem N_32 : cfg0.N = 32 := N_0

/-- The first point. -/
def t0 : Fin cfg0.N := ⟨0, by rw [N_32]; decide⟩

/-! ## The coordinates of the three scratch rectangles' elements -/

omit [FloatOps F] in
theorem R1_emb (t : Fin cfg0.N) (h : IsPipe t) (x : S1x512x512.Idx) :
    (((R1 t h).emb x) 0).val = (t.val / 8 + 1) % 2 + (x 0).val ∧ (((R1 t h).emb x) 1).val = 512 * (t.val % 8) + (x 1).val
      ∧ (((R1 t h).emb x) 2).val = (x 2).val := by
  refine ⟨?_, ?_, ?_⟩
  · show k0_off1 (grid0.coords t) 0 + 1 * (x 0).val = _; rw [off1_t t]; show (t.val / 8 + 1) % 2 + 1 * (x 0).val = _; omega
  · show k0_off1 (grid0.coords t) 1 + 1 * (x 1).val = _; rw [off1_t t]; show 512 * (t.val % 8) + 1 * (x 1).val = _; omega
  · show k0_off1 (grid0.coords t) 2 + 1 * (x 2).val = _; rw [off1_t t]; show 0 + 1 * (x 2).val = _; omega
omit [FloatOps F] in
theorem R0_emb (x : S1x4096x512.Idx) :
    ((R0.emb x) 0).val = (x 0).val ∧ ((R0.emb x) 1).val = (x 1).val ∧ ((R0.emb x) 2).val = (x 2).val := by
  refine ⟨?_, ?_, ?_⟩
  · show 0 + 1 * (x 0).val = _; omega
  · show 0 + 1 * (x 1).val = _; omega
  · show 0 + 1 * (x 2).val = _; omega
omit [FloatOps F] in
theorem R2_idx (t : Fin cfg0.N) (y : S1x4096x512.Idx) :
    (((R2 t).toLoadRect.idx y) 0).val = (t.val / 8) % 2 + (y 0).val ∧ (((R2 t).toLoadRect.idx y) 1).val = (y 1).val
      ∧ (((R2 t).toLoadRect.idx y) 2).val = (y 2).val := by
  refine ⟨?_, ?_, ?_⟩
  · show k0_off2 (grid0.coords t) 0 + 1 * (y 0).val = _; rw [off2_t t]; show (t.val / 8) % 2 + 1 * (y 0).val = _; omega
  · show k0_off2 (grid0.coords t) 1 + 1 * (y 1).val = _; rw [off2_t t]; show 0 + 1 * (y 1).val = _; omega
  · show k0_off2 (grid0.coords t) 2 + 1 * (y 2).val = _; rw [off2_t t]; show 0 + 1 * (y 2).val = _; omega

omit [FloatOps F] in
theorem idx_lt (x : S1x512x512.Idx) : (x 0).val < 1 ∧ (x 1).val < 512 ∧ (x 2).val < 512 := ⟨(x 0).isLt, (x 1).isLt, (x 2).isLt⟩
omit [FloatOps F] in
theorem idx_lt' (x : S1x4096x512.Idx) : (x 0).val < 1 ∧ (x 1).val < 4096 ∧ (x 2).val < 512 := ⟨(x 0).isLt, (x 1).isLt, (x 2).isLt⟩

/-! ## What the stores write, and what a slot then reads -/

/-- The first point's store: x[0] · W, whole. -/
def proV (c : Dev nD) : Vec F S1x4096x512 .f32 := k0_pay1 (View.ld (iblk m c 0 t0) r2) (View.ld (iblk m c 3 t0) r5)
/-- Point `t`'s slab: the staged rows of x[i + 1] times W. -/
def slabV (c : Dev nD) (t : Fin cfg0.N) : Vec F S1x512x512 .f32 := k0_pay2 (View.ld (iblk m c 1 t) r3) (View.ld (iblk m c 3 t) r5)

/-- The point of the previous batch whose slab holds row `y 1`, and the row's place in that slab. -/
def prevSlab (t : Fin cfg0.N) (y : S1x4096x512.Idx) : Fin cfg0.N :=
  ⟨(8 * (t.val / 8 - 1) + (y 1).val / 512) % 32, lt_of_lt_of_eq (Nat.mod_lt _ (by decide)) N_32.symm⟩
def localRow (y : S1x4096x512.Idx) : S1x512x512.Idx :=
  ValueIdx.ix3 (0 : Fin 1) (⟨(y 1).val % 512, Nat.mod_lt _ (by decide)⟩ : Fin 512) (⟨(y 2).val, (y 2).isLt⟩ : Fin 512)

/-- The slot point `t` reads (slot i mod 2), as an array: batch 0 reads the first point's product, a later batch the
    eight slabs of the batch before, stacked. -/
def SupV (c : Dev nD) (t : Fin cfg0.N) : Vec F S1x4096x512 .f32 :=
  fun y => if t.val < 8 then proV m c y else slabV m c (prevSlab t y) (localRow y)

/-- The scratch between points: before point `k`, every slab written less than 16 points ago reads as written, and
    during batch 0 (after its first point) slot 0 reads as the first point left it. -/
def Inv (c : Dev nD) (k : ℕ) (f : scrM.view.ty.Contents (Elt F)) : Prop :=
  (∀ (t' : Fin cfg0.N) (h : IsPipe t'), t'.val < k → k ≤ t'.val + 16 →
      ∀ x : S1x512x512.Idx, scrM.view.read (Elt F) f ((R1 t' h).emb x) = slabV m c t' x)
  ∧ (1 ≤ k → k ≤ 8 → ∀ x : S1x4096x512.Idx, scrM.view.read (Elt F) f (R0.emb x) = proV m c x)

theorem inv_zero (c : Dev nD) (f : scrM.view.ty.Contents (Elt F)) : Inv m c 0 f :=
  ⟨fun _ _ h => absurd h (Nat.not_lt_zero _), fun h => absurd h (by decide)⟩

/-! ## One point's stores keep the invariant -/

variable {m}

/-- A slab element is outside another point's slab when the two points are less than 16 apart. -/
theorem slab_apart (t t' : Fin cfg0.N) (h : IsPipe t) (h' : IsPipe t') (hlt : t'.val < t.val) (hle : t.val ≤ t'.val + 15)
    (w : (R1 t h).shape.Idx → Elt F .f32) (L : List (View.Piece (Elt F) S2x4096x512 .f32)) (f : scrM.view.ty.Contents (Elt F))
    (x : S1x512x512.Idx) :
    scrM.view.read (Elt F) (scrM.view.writes (Elt F) f ((⟨R1 t h, w⟩ : View.Piece (Elt F) S2x4096x512 .f32) :: L)) ((R1 t' h').emb x)
      = scrM.view.read (Elt F) (scrM.view.writes (Elt F) f L) ((R1 t' h').emb x) := by
  obtain ⟨e0, e1, -⟩ := R1_emb t' h' x
  obtain ⟨x0, x1, -⟩ := idx_lt x
  by_cases hs : (t'.val / 8 + 1) % 2 = (t.val / 8 + 1) % 2
  · refine View.read_writes_cons_unit_of_not_mem scrM.view f _ w L _ (off1_t t) 1 ?_
    show (((R1 t' h').emb x) 1).val < 512 * (t.val % 8) ∨ 512 * (t.val % 8) + 512 ≤ (((R1 t' h').emb x) 1).val
    rw [e1]; omega
  · refine View.read_writes_cons_unit_of_not_mem scrM.view f _ w L _ (off1_t t) 0 ?_
    show (((R1 t' h').emb x) 0).val < (t.val / 8 + 1) % 2 ∨ (t.val / 8 + 1) % 2 + 1 ≤ (((R1 t' h').emb x) 0).val
    rw [e0]; omega

/-- An element of slot 0 is outside every slab of batch 0 (those go to slot 1). -/
theorem slab_off_slot0 (t : Fin cfg0.N) (h : IsPipe t) (ht : t.val < 8)
    (w : (R1 t h).shape.Idx → Elt F .f32) (L : List (View.Piece (Elt F) S2x4096x512 .f32)) (f : scrM.view.ty.Contents (Elt F))
    (x : S1x4096x512.Idx) :
    scrM.view.read (Elt F) (scrM.view.writes (Elt F) f ((⟨R1 t h, w⟩ : View.Piece (Elt F) S2x4096x512 .f32) :: L)) (R0.emb x)
      = scrM.view.read (Elt F) (scrM.view.writes (Elt F) f L) (R0.emb x) := by
  obtain ⟨e0, -, -⟩ := R0_emb x
  obtain ⟨x0, -, -⟩ := idx_lt' x
  refine View.read_writes_cons_unit_of_not_mem scrM.view f _ w L _ (off1_t t) 0 ?_
  show ((R0.emb x) 0).val < (t.val / 8 + 1) % 2 ∨ (t.val / 8 + 1) % 2 + 1 ≤ ((R0.emb x) 0).val
  rw [e0]; omega

variable (m)

/-- After the first point's two stores. -/
theorem inv_first (c : Dev nD) (t : Fin cfg0.N) (ht : t.val = 0) (hP : IsPipe t) (f : scrM.view.ty.Contents (Elt F)) :
    Inv m c 1 (scrM.view.writes (Elt F) f [slabP t hP (iblk m c 1 t) (iblk m c 3 t), proP (iblk m c 0 t) (iblk m c 3 t)]) := by
  have e : t = t0 := Fin.ext ht
  subst e
  refine ⟨fun t' h' hlt _ x => ?_, fun _ _ x => ?_⟩
  · have e' : t' = t0 := Fin.ext (by show t'.val = 0; omega)
    subst e'
    exact View.read_writes_cons_emb scrM.view f (R1 t0 hP) _ _ x
  · rw [slab_off_slot0 t0 hP (by show (0 : ℕ) < 8; decide)]
    exact View.read_writes_cons_emb scrM.view f R0 _ _ x

/-- After a later pipelined point's one store. -/
theorem inv_mid (c : Dev nD) (t : Fin cfg0.N) (ht : 1 ≤ t.val) (hP : IsPipe t) (f : scrM.view.ty.Contents (Elt F))
    (hI : Inv m c t.val f) :
    Inv m c (t.val + 1) (scrM.view.writes (Elt F) f [slabP t hP (iblk m c 1 t) (iblk m c 3 t)]) := by
  refine ⟨fun t' h' hlt hle x => ?_, fun _ h8 x => ?_⟩
  · by_cases e : t' = t
    · subst e
      exact View.read_writes_cons_emb scrM.view f (R1 t' hP) _ _ x
    · have hne : t'.val ≠ t.val := fun h => e (Fin.ext h)
      rw [slab_apart t t' hP h' (by omega) (by omega)]
      exact hI.1 t' h' (by omega) (by omega) x
  · rw [slab_off_slot0 t hP (by omega)]
    exact hI.2 ht (by omega) x

/-- A point of the last batch stores nothing into the scratch. -/
theorem inv_last (c : Dev nD) (t : Fin cfg0.N) (hP : ¬ IsPipe t) (f : scrM.view.ty.Contents (Elt F)) (hI : Inv m c t.val f) :
    Inv m c (t.val + 1) f := by
  have h24 : 24 ≤ t.val := by have := (isPipe_iff t).not.mp hP; omega
  refine ⟨fun t' h' hlt hle x => ?_, fun _ h8 => absurd h8 (by omega)⟩
  have := (isPipe_iff t').mp h'
  exact hI.1 t' h' (by omega) (by omega) x

/-! ## What the whole-slot read sees after the point's stores -/

/-- Once point `t`'s stores are in, the slot it reads is `SupV t`. -/
theorem supRead_eq (c : Dev nD) (t : Fin cfg0.N) (f : scrM.view.ty.Contents (Elt F)) (hI : Inv m c (t.val + 1) f) :
    supRead t f = SupV m c t := by
  have hN : t.val < 32 := lt_of_lt_of_eq t.isLt N_32
  funext y
  obtain ⟨i0, i1, i2⟩ := R2_idx t y
  obtain ⟨y0, y1, y2⟩ := idx_lt' y
  show scrM.view.read (Elt F) f ((R2 t).toLoadRect.idx y) = _
  unfold SupV
  by_cases h8 : t.val < 8
  · rw [if_pos h8]
    have e : (R2 t).toLoadRect.idx y = R0.emb y := funext fun a => Fin.ext (by
      obtain ⟨e0, e1, e2⟩ := R0_emb y
      match a with
      | ⟨0, _⟩ => show (((R2 t).toLoadRect.idx y) 0).val = ((R0.emb y) 0).val; rw [i0, e0]; omega
      | ⟨1, _⟩ => show (((R2 t).toLoadRect.idx y) 1).val = ((R0.emb y) 1).val; rw [i1, e1]
      | ⟨2, _⟩ => show (((R2 t).toLoadRect.idx y) 2).val = ((R0.emb y) 2).val; rw [i2, e2])
    rw [e]
    exact hI.2 (by omega) (by omega) y
  · rw [if_neg h8]
    have hp : (prevSlab t y).val = 8 * (t.val / 8 - 1) + (y 1).val / 512 := by
      show (8 * (t.val / 8 - 1) + (y 1).val / 512) % 32 = _
      omega
    have hP' : IsPipe (prevSlab t y) := (isPipe_iff _).mpr (by rw [hp]; omega)
    have e : (R2 t).toLoadRect.idx y = (R1 (prevSlab t y) hP').emb (localRow y) := funext fun a => Fin.ext (by
      obtain ⟨e0, e1, e2⟩ := R1_emb (prevSlab t y) hP' (localRow y)
      have l0 : ((localRow y) 0).val = 0 := rfl
      have l1 : ((localRow y) 1).val = (y 1).val % 512 := rfl
      have l2 : ((localRow y) 2).val = (y 2).val := rfl
      match a with
      | ⟨0, _⟩ => show (((R2 t).toLoadRect.idx y) 0).val = (((R1 (prevSlab t y) hP').emb (localRow y)) 0).val; rw [i0, e0, hp, l0]; omega
      | ⟨1, _⟩ => show (((R2 t).toLoadRect.idx y) 1).val = (((R1 (prevSlab t y) hP').emb (localRow y)) 1).val; rw [i1, e1, hp, l1]; omega
      | ⟨2, _⟩ => show (((R2 t).toLoadRect.idx y) 2).val = (((R1 (prevSlab t y) hP').emb (localRow y)) 2).val; rw [i2, e2, l2])
    rw [e]
    exact hI.1 (prevSlab t y) hP' (by rw [hp]; omega) (by rw [hp]; omega) (localRow y)

end Cert.Proof.Kernel

end
-- ==== Proof.RunW.lean ====
/-
  The pipeline's proof data and the body obligation. What each window's staging buffer holds after the body: an input
  tile stays the block of its array the schedule put there; the output tile is adj-tile · (the slot the point reads) +
  bias, with the slot the definite array of the schedule module. Between points the body's invariant is the scratch at
  SOME contents satisfying the schedule's invariant; each kind of point (first; pipelined; last batch) is one run of
  the body, and the schedule module's lemmas carry the invariant across it and name what the slot read saw.
-/
import proofs.«104165_g71863392796808_cont_9to1_m_899_14_alg».proof.Proof.SchedW
import Idealize.ShloMosaic.Lib.Pipeline.Kit

set_option maxRecDepth 16384

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch at some contents that satisfy the schedule's invariant before point `k`. -/
def Φs (c : Dev nD) (k : Fin (cfg0.N + 1)) : sProp 𝕄 :=
  iprop(∃ f : scrM.view.ty.Contents (Elt F), (scrM.view.loc (c : Thread nD τ) ↦[scrM.view.set]{fullShare} f) ∗ ⌜Inv m c k.val f⌝)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (iblk m c 2 t) (SupV m c t) (iblk m c 4 t)
  Φ k := Φs m c k
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

abbrev 𝒱₀ : Variants := Variants.none

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outv (iblk m c 2 t) (SupV m c t) (iblk m c 4 t) := by dsimp only [dats]

/-- Every input window's current staging buffer holds its block, fetched at the point or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rfl) t d).trans
    (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rfl) t d).trans
    (by unfold Dat.fetched Dat.blockOf iblk; rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rfl) t d).trans
    (by unfold Dat.fetched Dat.blockOf iblk; rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rfl) t d).trans
    (by unfold Dat.fetched Dat.blockOf iblk; rfl)

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_pre (c : Dev nD) (t : Fin cfg0.N) :
    (dats m 0 c).Φ t.castSucc = iprop(∃ f : scrM.view.ty.Contents (Elt F), (scrM.view.loc (c : Thread nD τ) ↦[scrM.view.set]{fullShare} f) ∗ ⌜Inv m c t.val f⌝) := rfl
theorem Φ_post (c : Dev nD) (t : Fin cfg0.N) :
    (dats m 0 c).Φ t.succ = iprop(∃ f : scrM.view.ty.Contents (Elt F), (scrM.view.loc (c : Thread nD τ) ↦[scrM.view.set]{fullShare} f) ∗ ⌜Inv m c (t.val + 1) f⌝) := rfl

/-- The body obligation, by the kind of point. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  simp only [before_0, before_1, before_2, before_3, before_4, after_0, after_1, after_2, after_3, after_4, after_5]
  rw [Φ_pre, Φ_post]
  by_cases hP : IsPipe t
  · by_cases hF : IsFirst t
    · -- the first point
      have h0 : t.val = 0 := (isFirst_iff t).mp hF
      iintro ⟨⟨%f, Ha, %hI⟩, ⟨%Wt, %hW, HO⟩, ⟨%d0, H0⟩, ⟨%d1, H1⟩, ⟨%d2, H2⟩, ⟨%d3, H3⟩, ⟨%d4, H4⟩, ⟨%d5, H5⟩⟩
      have hI' : Inv m c (t.val + 1) (scrM.view.writes (Elt F) f [slabP t hP (iblk m c 1 t) (iblk m c 3 t), proP (iblk m c 0 t) (iblk m c 3 t)]) := by
        rw [h0]; exact inv_first m c t h0 hP f
      have hs := supRead_eq m c t _ hI'
      iapply (run_first c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (iblk m c 0 t) (iblk m c 1 t) (iblk m c 2 t) (iblk m c 3 t) (iblk m c 4 t) f hF hP)
      rw [hs]
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [Ha]; · iexact Ha
      iintro ⟨⟨H0, H1, H2, H3, H4⟩, H5, Ha⟩
      isplitl [Ha]
      · iexists _; isplitl [Ha]; · iexact Ha
        ipureintro; exact hI'
      isplitl [HO]; · iapply (owesAt_intro m c); iexact HO
      isplitl [H0]; · iexact H0
      isplitl [H1]; · iexact H1
      isplitl [H2]; · iexact H2
      isplitl [H3]; · iexact H3
      isplitl [H4]; · iexact H4
      iexact H5
    · -- a later pipelined point
      have h1 : 1 ≤ t.val := by have := (isFirst_iff t).not.mp hF; omega
      iintro ⟨⟨%f, Ha, %hI⟩, ⟨%Wt, %hW, HO⟩, ⟨%d0, H0⟩, ⟨%d1, H1⟩, ⟨%d2, H2⟩, ⟨%d3, H3⟩, ⟨%d4, H4⟩, ⟨%d5, H5⟩⟩
      have hI' : Inv m c (t.val + 1) (scrM.view.writes (Elt F) f [slabP t hP (iblk m c 1 t) (iblk m c 3 t)]) := inv_mid m c t h1 hP f hI
      have hs := supRead_eq m c t _ hI'
      iapply (run_mid c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (iblk m c 0 t) (iblk m c 1 t) (iblk m c 2 t) (iblk m c 3 t) (iblk m c 4 t) f hF hP)
      rw [hs]
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [Ha]; · iexact Ha
      iintro ⟨⟨H0, H1, H2, H3, H4⟩, H5, Ha⟩
      isplitl [Ha]
      · iexists _; isplitl [Ha]; · iexact Ha
        ipureintro; exact hI'
      isplitl [HO]; · iapply (owesAt_intro m c); iexact HO
      isplitl [H0]; · iexact H0
      isplitl [H1]; · iexact H1
      isplitl [H2]; · iexact H2
      isplitl [H3]; · iexact H3
      isplitl [H4]; · iexact H4
      iexact H5
  · -- a point of the last batch
    have hF : ¬ IsFirst t := fun h => by
      have := (isFirst_iff t).mp h; have := (isPipe_iff t).not.mp hP; omega
    iintro ⟨⟨%f, Ha, %hI⟩, ⟨%Wt, %hW, HO⟩, ⟨%d0, H0⟩, ⟨%d1, H1⟩, ⟨%d2, H2⟩, ⟨%d3, H3⟩, ⟨%d4, H4⟩, ⟨%d5, H5⟩⟩
    have hI' : Inv m c (t.val + 1) f := inv_last m c t hP f hI
    have hs := supRead_eq m c t _ hI'
    iapply (run_last c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (iblk m c 0 t) (iblk m c 1 t) (iblk m c 2 t) (iblk m c 3 t) (iblk m c 4 t) f hF hP)
    rw [hs]
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [Ha]; · iexact Ha
    iintro ⟨⟨H0, H1, H2, H3, H4⟩, H5, Ha⟩
    isplitl [Ha]
    · iexists _; isplitl [Ha]; · iexact Ha
      ipureintro; exact hI'
    isplitl [HO]; · iapply (owesAt_intro m c); iexact HO
    isplitl [H0]; · iexact H0
    isplitl [H1]; · iexact H1
    isplitl [H2]; · iexact H2
    isplitl [H3]; · iexact H3
    isplitl [H4]; · iexact H4
    iexact H5

/-! ## The launch -/

/-- The scratch buffer, whole at the full share, is the scratch memref's elements at some contents, and back. -/
theorem scr_in (c : Dev nD) (f : Buf (Elt F) ((c : Thread nD τ).loc cc0_scratch0)) :
    ((((c : Thread nD τ).loc cc0_scratch0) ↦{fullShare} f) : sProp 𝕄)
      ⊢ iprop(∃ g : scrM.view.ty.Contents (Elt F), (scrM.view.loc (c : Thread nD τ) ↦[scrM.view.set]{fullShare} g)) := by
  rw [← owns_whole (c : Thread nD τ) cc0_scratch0 fullShare f]
  unfold owns
  iintro ⟨%g, %hg, Hg⟩
  iexists g; iexact Hg

theorem scr_out (c : Dev nD) (g : scrM.view.ty.Contents (Elt F)) :
    ((scrM.view.loc (c : Thread nD τ) ↦[scrM.view.set]{fullShare} g) : sProp 𝕄)
      ⊢ iprop(∃ f : Buf (Elt F) ((c : Thread nD τ).loc cc0_scratch0), (((c : Thread nD τ).loc cc0_scratch0) ↦{fullShare} f)) :=
  (owns_intro (c : Thread nD τ) scrM fullShare g).trans (by
    rw [owns_whole]
    iintro H; iexists _; iexact H)

theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [scopedRest0_eq]
  refine (show _ ⊢ (iprop(∃ g : scrM.view.ty.Contents (Elt F), (scrM.view.loc (c : Thread nD τ) ↦[scrM.view.set]{fullShare} g)) : sProp 𝕄) from ?_).trans ?_
  · iintro ⟨-, ⟨%f, Hf⟩⟩
    iapply (scr_in c f); iexact Hf
  · show _ ⊢ Φs m c 0
    unfold Φs
    iintro ⟨%g, Hg⟩
    iexists g
    isplitl [Hg]; · iexact Hg
    ipureintro; exact inv_zero m c g

theorem hout (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  rw [scopedRest0_eq]
  show Φs m c _ ⊢ _
  unfold Φs
  iintro ⟨%g, Hg, -⟩
  isplitr; · iempintro
  iapply (scr_out c g); iexact Hg

/-- The five distinct buffers behind the six windows' arrays. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1) ↦{fullShare} W main_v1)) :=
  bigSep_eq_bigSepL_of_eq [main_arg0, main_arg1, main_arg2, main_v0, main_v1] (by decide) (by decide) _

/-- The x array is read through two windows: its full share is dealt to them in halves; every other array goes to its one
    window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  rw [(arr_whole0 0).set_eq_univ, (arr_whole0 2).set_eq_univ, (arr_whole0 3).set_eq_univ,
    (arr_whole0 4).set_eq_univ, (arr_whole0 5).set_eq_univ]
  beta_reduce
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl]
  iintro ⟨H0, H1, H2, H3, H4⟩
  ihave ⟨Ha, Hb⟩ := (pointsTo_share (PosShare.mem_left_op_right fullShare)).1 $$ H0
  isplitl [Ha]; · iexact Ha
  isplitl [Hb]; · iexact Hb
  isplitl [H1]; · iexact H1
  isplitl [H2]; · iexact H2
  isplitl [H3]; · iexact H3
  iexact H4

/-- What the run concludes: every window's array at the library's account of it, and the bias argument (no window's
    array) as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

theorem run_main : θ_run defs (onTc (τ := τ) (main (F := F))) ⟨m, fun _ => 0, ρ⟩ (RunPost m) :=
  Pipeline.θ_run_region_noSem_shared cfgs (dats m) () cellOf_inj 0 winFacts₀0 emb₁ defs₀ 𝒱₀ m ρ main
    (hbody := fun c => (body_obligation m c).loose) (hne := block_pos0) (harr := arr_whole0) (hstage := stage_whole0)
    (howed := fun _ _ => rfl)
    (u₀ := Rounds.initOf (Pipeline.cells cfgs cellOf_inj) (Pipeline.launchToks cfgs cellOf_inj)) (hu₀ := .rfl)
    (V := V m) (hmain := hmain m 𝒱₀) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.Proof.Kernel.run_main' depends on axioms: [propext, Classical.choice, Quot.sound] -/
#guard_msgs in #print axioms run_main

/-! ## Reading the run's post -/

variable {m ρ}

theorem final_arg0 {r : PUnit × MemSt nD τ sig (Elt F)} (h : RunPost m r) (c : Dev nD) :
    r.2.mem ((c : Thread nD τ).loc main_arg0) = m ((c : Thread nD τ).loc main_arg0) :=
  ((h c).1 0).trans (((dats m 0 c).arrAt_in 0 rfl _).trans (V_main_arg0 m c))
theorem final_arg1 {r : PUnit × MemSt nD τ sig (Elt F)} (h : RunPost m r) (c : Dev nD) :
    r.2.mem ((c : Thread nD τ).loc main_arg1) = m ((c : Thread nD τ).loc main_arg1) :=
  ((h c).1 2).trans (((dats m 0 c).arrAt_in 2 rfl _).trans (V_main_arg1 m c))
theorem final_arg2 {r : PUnit × MemSt nD τ sig (Elt F)} (h : RunPost m r) (c : Dev nD) :
    r.2.mem ((c : Thread nD τ).loc main_arg2) = m ((c : Thread nD τ).loc main_arg2) :=
  ((h c).1 3).trans (((dats m 0 c).arrAt_in 3 rfl _).trans (V_main_arg2 m c))
theorem final_arg3 {r : PUnit × MemSt nD τ sig (Elt F)} (h : RunPost m r) (c : Dev nD) :
    r.2.mem ((c : Thread nD τ).loc main_arg3) = m ((c : Thread nD τ).loc main_arg3) :=
  ((h c).2 main_arg3 (Pipeline.mem_restRefs_of main_arg3 rfl (by decide))).trans (V_main_arg3 m c)
theorem final_out {r : PUnit × MemSt nD τ sig (Elt F)} (h : RunPost m r) (c : Dev nD) :
    r.2.mem ((c : Thread nD τ).loc main_v1) = (dats m 0 c).arrAt 5 cfg0.N :=
  (h c).1 5

variable (m ρ)

/-- Every weakly fair execution terminates, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨final_arg0 h c, final_arg1 h c, final_arg2 h c, final_arg3 h c⟩) (run_main m ρ)

end Cert.Proof.Kernel

end
-- ==== Proof.Body.lean ====
/-
  The kernel body at a symbolic grid point. The grid is (4 batches, 8 row tiles); at point (i, j) the body
    * if i = 0 and j = 0, fills slot 0 of its two-slot scratch with the whole product x[0] · W;
    * if i < 3, fills rows [512 j, 512 j + 512) of slot (i + 1) mod 2 with the product of rows of x[i + 1] and W;
    * always reads slot i mod 2 whole and stores adj-tile · slot + bias into the output tile.
  Only three combinations of the two conditions occur on the grid: both (the first point), the second alone (the other
  points of batches 0–2) and neither (batch 3). For each, one run of the body from the staged blocks and ANY scratch
  contents: the scratch ends at the stores written over what it held, the output tile at the last store's payload, every
  input tile as it was. What the whole-slot read sees is left as a read of those writes: the schedule of the slots is
  pure reasoning about lists of writes, done in the next module.
-/
import proofs.«104165_g71863392796808_cont_9to1_m_899_14_alg».proof.Proof.Gen.KernelIdeal
import proofs.«104165_g71863392796808_cont_9to1_m_899_14_alg».proof.Proof.Gen.KernelIdeal.Skeleton
import proofs.«104165_g71863392796808_cont_9to1_m_899_14_alg».proof.Proof.Gen.KernelIdeal.Launch
import proofs.«104165_g71863392796808_cont_9to1_m_899_14_alg».proof.Proof.Gen.KernelIdeal.Points
import Idealize.ShloMosaic.Lib.Writes
import Idealize.ShloMosaic.Lib.Pipeline.FrameBody
import Idealize.ShloMosaic.Lib.Tactic

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The two computed offsets in closed form -/

/-- The slab store goes to slot (i + 1) mod 2, rows from 512 j. -/
theorem k0_off1_eq : ∀ i : grid0.Coords, k0_off1 i = ![((i 0).val + 1) % 2, 512 * (i 1).val, 0] := by decide +kernel
instance closedOff_k0_off1 (i : grid0.Coords) : ClosedOff (k0_off1 i) := ⟨![((i 0).val + 1) % 2, 512 * (i 1).val, 0], k0_off1_eq i⟩
/-- The whole-slot read is of slot i mod 2. -/
theorem k0_off2_eq : ∀ i : grid0.Coords, k0_off2 i = ![(i 0).val % 2, 0, 0] := by decide +kernel
instance closedOff_k0_off2 (i : grid0.Coords) : ClosedOff (k0_off2 i) := ⟨![(i 0).val % 2, 0, 0], k0_off2_eq i⟩

/-! ## Conditions, rectangles, pieces -/

/-- The scratch memref: two slots of 4096 × 512, whole. -/
abbrev scrM : Memref sig .tc .vmem S2x4096x512 .f32 := Memref.whole cc0_scratch0

/-- "i = 0 and j = 0" and "i < 3", as the body computes them. -/
abbrev IsFirst (t : Fin cfg0.N) : Prop :=
  Scalar.cmpi .ne (Scalar.extui (Scalar.andi (Scalar.cmpi .eq (BitVec.ofNat 32 ((grid0.coords t) 0).val) 0#32) (Scalar.cmpi .eq (BitVec.ofNat 32 ((grid0.coords t) 1).val) 0#32))) 0#32 = 1#1
abbrev IsPipe (t : Fin cfg0.N) : Prop := k0_cond2 (grid0.coords t) = 1#1

/-- The whole-block rectangles the staged tiles are read and written through. -/
abbrev r2 : Rect S1x4096x512 := Rect.unit (s := S1x4096x512) ![0, 0, 0] S1x4096x512.size inb_S1x4096x512_S1x4096x512_0_0_0
abbrev r3 : Rect S1x512x512 := Rect.unit (s := S1x512x512) ![0, 0, 0] S1x512x512.size inb_S1x512x512_S1x512x512_0_0_0
abbrev r4 : Rect S1x512x4096 := Rect.unit (s := S1x512x4096) ![0, 0, 0] S1x512x4096.size inb_S1x512x4096_S1x512x4096_0_0_0
abbrev r5 : Rect S512x512 := Rect.unit (s := S512x512) ![0, 0] S512x512.size inb_S512x512_S512x512_0_0
abbrev r6 : Rect S1x512 := Rect.unit (s := S1x512) ![0, 0] S1x512.size inb_S1x512_S1x512_0_0
/-- Slot 0 whole; the slab the point fills; the slot the point reads. -/
abbrev R0 : Rect S2x4096x512 := Rect.unit (s := S2x4096x512) ![0, 0, 0] S1x4096x512.size inb_S2x4096x512_S1x4096x512_0_0_0
abbrev R1 (t : Fin cfg0.N) (hP : IsPipe t) : Rect S2x4096x512 :=
  Rect.unit (s := S2x4096x512) (k0_off1 (grid0.coords t)) S1x512x512.size (k0_off1_inb (grid0.coords t) hP)
abbrev R2 (t : Fin cfg0.N) : Rect S2x4096x512 :=
  Rect.unit (s := S2x4096x512) (k0_off2 (grid0.coords t)) S1x4096x512.size (k0_off2_inb (grid0.coords t))

/-- The store of x[0] · W into slot 0, and of a slab of x[i + 1] · W, as pieces. -/
abbrev proP (x0 : Vec F S1x4096x512 .f32) (w : Vec F S512x512 .f32) : View.Piece (Elt F) S2x4096x512 .f32 :=
  ⟨R0, k0_pay1 (View.ld x0 r2) (View.ld w r5)⟩
abbrev slabP (t : Fin cfg0.N) (hP : IsPipe t) (xs : Vec F S1x512x512 .f32) (w : Vec F S512x512 .f32) : View.Piece (Elt F) S2x4096x512 .f32 :=
  ⟨R1 t hP, k0_pay2 (View.ld xs r3) (View.ld w r5)⟩

/-- What the whole-slot read sees of scratch contents `f`. -/
abbrev supRead (t : Fin cfg0.N) (f : scrM.view.ty.Contents (Elt F)) : Vec F S1x4096x512 .f32 :=
  View.readAt (Elt F) scrM.view (R2 t).toLoadRect f

/-- The output tile: adj-tile · slot + bias, as the one store leaves it. -/
abbrev outv (aj : Vec F S1x512x4096 .f32) (sup : Vec F S1x4096x512 .f32) (bs : Vec F S1x512 .f32) : Vec F S1x512x512 .f32 :=
  View.canon [⟨r3, k0_pay3 (View.ld aj r4) sup (View.ld bs r6)⟩]

omit [FloatOps F] in
theorem cover_out (p : Vec F S1x512x512 .f32) (y : S1x512x512.Idx) : ∃ pc ∈ ([⟨r3, p⟩] : List (View.Piece (Elt F) S1x512x512 .f32)), y ∈ pc.1.set :=
  View.cover_of_tiled [⟨r3, p⟩] S1x512x512.size (by rfl) y

section Runs

variable (c : Dev nD) (t : Fin cfg0.N)
  (M2 : Memref sig .tc .vmem S1x4096x512 .f32) (h2 : M2.IsWhole) (M3 : Memref sig .tc .vmem S1x512x512 .f32) (h3 : M3.IsWhole)
  (M4 : Memref sig .tc .vmem S1x512x4096 .f32) (h4 : M4.IsWhole) (M5 : Memref sig .tc .vmem S512x512 .f32) (h5 : M5.IsWhole)
  (M6 : Memref sig .tc .vmem S1x512 .f32) (h6 : M6.IsWhole) (M7 : Memref sig .tc .vmem S1x512x512 .f32) (h7 : M7.IsWhole)
  (x0 : Vec F S1x4096x512 .f32) (xs : Vec F S1x512x512 .f32) (aj : Vec F S1x512x4096 .f32) (w : Vec F S512x512 .f32) (bs : Vec F S1x512 .f32)
  (fa : scrM.view.ty.Contents (Elt F))

local notation "BODY" => cc0__gcn_kernel (grid0.coords t) M2 h2 M3 h3 M4 h4 M5 h5 M6 h6 M7 h7 (Memref.whole cc0_scratch0) (Memref.isWhole_whole _)
local notation "INS" => iprop(owns (c : Thread nD τ) M2 fullShare x0 ∗ owns (c : Thread nD τ) M3 fullShare xs ∗ owns (c : Thread nD τ) M4 fullShare aj
      ∗ owns (c : Thread nD τ) M5 fullShare w ∗ owns (c : Thread nD τ) M6 fullShare bs)
local notation "SCR" f => (scrM.view.loc (c : Thread nD τ) ↦[scrM.view.set]{fullShare} f)

/-- The first point: slot 0 filled whole, then the first slab of slot 1; the read is of those writes. -/
theorem run_first (hF : IsFirst t) (hP : IsPipe t) (Q : PUnit → sProp 𝕄) :
    iprop(INS ∗ (∃ d, owns (c : Thread nD τ) M7 fullShare d) ∗ (SCR fa)
      ∗ (iprop(INS ∗ owns (c : Thread nD τ) M7 fullShare (outv aj (supRead t (scrM.view.writes (Elt F) fa [slabP t hP xs w, proP x0 w])) bs)
          ∗ (SCR (scrM.view.writes (Elt F) fa [slabP t hP xs w, proP x0 w]))) -∗ Q ⟨⟩))
      ⊢ wp frame (wpE (defs₀ (F := F)) Variants.none c none) Set.univ BODY Q := by
  unfold owns
  iintro ⟨⟨⟨%f2, %hf2, H2⟩, ⟨%f3, %hf3, H3⟩, ⟨%f4, %hf4, H4⟩, ⟨%f5, %hf5, H5⟩, ⟨%f6, %hf6, H6⟩⟩, ⟨%d7, %f7, %hf7, H7⟩, Ha, Hk⟩
  subst hf2 hf3 hf4 hf5 hf6
  sl_exec! (disch := assumption)
  sl_step
  iapply Hk
  isplitl [H2 H3 H4 H5 H6]
  · isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [H7]; · iexists _; isplitr; swap; (· iexact H7); ipureintro; exact View.read_writes_eq_canon _ _ _ (cover_out _)
  iexact Ha

/-- A later point of batches 0–2: one slab of the other slot filled; the read is of that write over what the scratch held. -/
theorem run_mid (hF : ¬ IsFirst t) (hP : IsPipe t) (Q : PUnit → sProp 𝕄) :
    iprop(INS ∗ (∃ d, owns (c : Thread nD τ) M7 fullShare d) ∗ (SCR fa)
      ∗ (iprop(INS ∗ owns (c : Thread nD τ) M7 fullShare (outv aj (supRead t (scrM.view.writes (Elt F) fa [slabP t hP xs w])) bs)
          ∗ (SCR (scrM.view.writes (Elt F) fa [slabP t hP xs w]))) -∗ Q ⟨⟩))
      ⊢ wp frame (wpE (defs₀ (F := F)) Variants.none c none) Set.univ BODY Q := by
  unfold owns
  iintro ⟨⟨⟨%f2, %hf2, H2⟩, ⟨%f3, %hf3, H3⟩, ⟨%f4, %hf4, H4⟩, ⟨%f5, %hf5, H5⟩, ⟨%f6, %hf6, H6⟩⟩, ⟨%d7, %f7, %hf7, H7⟩, Ha, Hk⟩
  subst hf2 hf3 hf4 hf5 hf6
  sl_exec! (disch := assumption)
  sl_step
  iapply Hk
  isplitl [H2 H3 H4 H5 H6]
  · isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [H7]; · iexists _; isplitr; swap; (· iexact H7); ipureintro; exact View.read_writes_eq_canon _ _ _ (cover_out _)
  iexact Ha

/-- A point of batch 3: the scratch is only read. -/
theorem run_last (hF : ¬ IsFirst t) (hP : ¬ IsPipe t) (Q : PUnit → sProp 𝕄) :
    iprop(INS ∗ (∃ d, owns (c : Thread nD τ) M7 fullShare d) ∗ (SCR fa)
      ∗ (iprop(INS ∗ owns (c : Thread nD τ) M7 fullShare (outv aj (supRead t fa) bs) ∗ (SCR fa)) -∗ Q ⟨⟩))
      ⊢ wp frame (wpE (defs₀ (F := F)) Variants.none c none) Set.univ BODY Q := by
  unfold owns
  iintro ⟨⟨⟨%f2, %hf2, H2⟩, ⟨%f3, %hf3, H3⟩, ⟨%f4, %hf4, H4⟩, ⟨%f5, %hf5, H5⟩, ⟨%f6, %hf6, H6⟩⟩, ⟨%d7, %f7, %hf7, H7⟩, Ha, Hk⟩
  subst hf2 hf3 hf4 hf5 hf6
  sl_exec! (disch := assumption)
  sl_step
  iapply Hk
  isplitl [H2 H3 H4 H5 H6]
  · isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  isplitl [H7]; · iexists _; isplitr; swap; (· iexact H7); ipureintro; exact View.read_writes_eq_canon _ _ _ (cover_out _)
  iexact Ha

end Runs

end Cert.Proof.KernelIdeal

end
-- ==== Proof.Sched.lean ====
/-
  The schedule of the two-slot scratch, as pure statements about lists of writes (generic in the float instance).

  Point t = 8 i + j of the 32-point grid (batch i, row tile j). The first point fills slot 0 with x[0] · W; every
  point with i < 3 fills rows [512 j, 512 j + 512) of slot (i + 1) mod 2 with rows of x[i + 1] · W. A slab written at
  point t' is next overwritten at point t' + 16 (two batches later, same slot, same rows); the first point's slot 0 is
  next overwritten at point 8. So, between points, the scratch satisfies: every slab written at t' < k, k ≤ t' + 16, still
  reads as written; and for 1 ≤ k ≤ 8 slot 0 reads as the first point left it. From this the whole-slot read at point t
  (slot i mod 2) is a definite array: the first point's product when i = 0, else the eight slabs written during batch
  i − 1, stacked.
-/
import proofs.«104165_g71863392796808_cont_9to1_m_899_14_alg».proof.Proof.Body
import Idealize.ShloMosaic.Lib.WritesUnit
import Idealize.ShloMosaic.Lib.Pipeline.Frame
import Idealize.ShloMosaic.Lib.ValueIdx

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the kernel region finds them -/

/-- The buffers when the region is entered: after the one host operation (the bias reshaped to one row). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Points, conditions and offsets by the point's number -/

theorem coords_eq : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)
theorem isFirst_iff : ∀ t : Fin cfg0.N, IsFirst t ↔ t.val = 0 :=
  (by decide +kernel : ∀ t : Fin grid0.N, (Scalar.cmpi .ne (Scalar.extui (Scalar.andi (Scalar.cmpi .eq (BitVec.ofNat 32 ((grid0.coords t) 0).val) 0#32) (Scalar.cmpi .eq (BitVec.ofNat 32 ((grid0.coords t) 1).val) 0#32))) 0#32 = 1#1) ↔ t.val = 0)
theorem isPipe_iff : ∀ t : Fin cfg0.N, IsPipe t ↔ t.val < 24 :=
  (by decide +kernel : ∀ t : Fin grid0.N, k0_cond2 (grid0.coords t) = 1#1 ↔ t.val < 24)
theorem off1_t : ∀ t : Fin cfg0.N, k0_off1 (grid0.coords t) = ![(t.val / 8 + 1) % 2, 512 * (t.val % 8), 0] :=
  (by decide +kernel : ∀ t : Fin grid0.N, k0_off1 (grid0.coords t) = ![(t.val / 8 + 1) % 2, 512 * (t.val % 8), 0])
theorem off2_t : ∀ t : Fin cfg0.N, k0_off2 (grid0.coords t) = ![(t.val / 8) % 2, 0, 0] :=
  (by decide +kernel : ∀ t : Fin grid0.N, k0_off2 (grid0.coords t) = ![(t.val / 8) % 2, 0, 0])

theorem N_32 : cfg0.N = 32 := N_0

/-- The first point. -/
def t0 : Fin cfg0.N := ⟨0, by rw [N_32]; decide⟩

/-! ## The coordinates of the three scratch rectangles' elements -/

omit [FloatOps F] in
theorem R1_emb (t : Fin cfg0.N) (h : IsPipe t) (x : S1x512x512.Idx) :
    (((R1 t h).emb x) 0).val = (t.val / 8 + 1) % 2 + (x 0).val ∧ (((R1 t h).emb x) 1).val = 512 * (t.val % 8) + (x 1).val
      ∧ (((R1 t h).emb x) 2).val = (x 2).val := by
  refine ⟨?_, ?_, ?_⟩
  · show k0_off1 (grid0.coords t) 0 + 1 * (x 0).val = _; rw [off1_t t]; show (t.val / 8 + 1) % 2 + 1 * (x 0).val = _; omega
  · show k0_off1 (grid0.coords t) 1 + 1 * (x 1).val = _; rw [off1_t t]; show 512 * (t.val % 8) + 1 * (x 1).val = _; omega
  · show k0_off1 (grid0.coords t) 2 + 1 * (x 2).val = _; rw [off1_t t]; show 0 + 1 * (x 2).val = _; omega
omit [FloatOps F] in
theorem R0_emb (x : S1x4096x512.Idx) :
    ((R0.emb x) 0).val = (x 0).val ∧ ((R0.emb x) 1).val = (x 1).val ∧ ((R0.emb x) 2).val = (x 2).val := by
  refine ⟨?_, ?_, ?_⟩
  · show 0 + 1 * (x 0).val = _; omega
  · show 0 + 1 * (x 1).val = _; omega
  · show 0 + 1 * (x 2).val = _; omega
omit [FloatOps F] in
theorem R2_idx (t : Fin cfg0.N) (y : S1x4096x512.Idx) :
    (((R2 t).toLoadRect.idx y) 0).val = (t.val / 8) % 2 + (y 0).val ∧ (((R2 t).toLoadRect.idx y) 1).val = (y 1).val
      ∧ (((R2 t).toLoadRect.idx y) 2).val = (y 2).val := by
  refine ⟨?_, ?_, ?_⟩
  · show k0_off2 (grid0.coords t) 0 + 1 * (y 0).val = _; rw [off2_t t]; show (t.val / 8) % 2 + 1 * (y 0).val = _; omega
  · show k0_off2 (grid0.coords t) 1 + 1 * (y 1).val = _; rw [off2_t t]; show 0 + 1 * (y 1).val = _; omega
  · show k0_off2 (grid0.coords t) 2 + 1 * (y 2).val = _; rw [off2_t t]; show 0 + 1 * (y 2).val = _; omega

omit [FloatOps F] in
theorem idx_lt (x : S1x512x512.Idx) : (x 0).val < 1 ∧ (x 1).val < 512 ∧ (x 2).val < 512 := ⟨(x 0).isLt, (x 1).isLt, (x 2).isLt⟩
omit [FloatOps F] in
theorem idx_lt' (x : S1x4096x512.Idx) : (x 0).val < 1 ∧ (x 1).val < 4096 ∧ (x 2).val < 512 := ⟨(x 0).isLt, (x 1).isLt, (x 2).isLt⟩

/-! ## What the stores write, and what a slot then reads -/

/-- The first point's store: x[0] · W, whole. -/
def proV (c : Dev nD) : Vec F S1x4096x512 .f32 := k0_pay1 (View.ld (iblk m c 0 t0) r2) (View.ld (iblk m c 3 t0) r5)
/-- Point `t`'s slab: the staged rows of x[i + 1] times W. -/
def slabV (c : Dev nD) (t : Fin cfg0.N) : Vec F S1x512x512 .f32 := k0_pay2 (View.ld (iblk m c 1 t) r3) (View.ld (iblk m c 3 t) r5)

/-- The point of the previous batch whose slab holds row `y 1`, and the row's place in that slab. -/
def prevSlab (t : Fin cfg0.N) (y : S1x4096x512.Idx) : Fin cfg0.N :=
  ⟨(8 * (t.val / 8 - 1) + (y 1).val / 512) % 32, lt_of_lt_of_eq (Nat.mod_lt _ (by decide)) N_32.symm⟩
def localRow (y : S1x4096x512.Idx) : S1x512x512.Idx :=
  ValueIdx.ix3 (0 : Fin 1) (⟨(y 1).val % 512, Nat.mod_lt _ (by decide)⟩ : Fin 512) (⟨(y 2).val, (y 2).isLt⟩ : Fin 512)

/-- The slot point `t` reads (slot i mod 2), as an array: batch 0 reads the first point's product, a later batch the
    eight slabs of the batch before, stacked. -/
def SupV (c : Dev nD) (t : Fin cfg0.N) : Vec F S1x4096x512 .f32 :=
  fun y => if t.val < 8 then proV m c y else slabV m c (prevSlab t y) (localRow y)

/-- The scratch between points: before point `k`, every slab written less than 16 points ago reads as written, and
    during batch 0 (after its first point) slot 0 reads as the first point left it. -/
def Inv (c : Dev nD) (k : ℕ) (f : scrM.view.ty.Contents (Elt F)) : Prop :=
  (∀ (t' : Fin cfg0.N) (h : IsPipe t'), t'.val < k → k ≤ t'.val + 16 →
      ∀ x : S1x512x512.Idx, scrM.view.read (Elt F) f ((R1 t' h).emb x) = slabV m c t' x)
  ∧ (1 ≤ k → k ≤ 8 → ∀ x : S1x4096x512.Idx, scrM.view.read (Elt F) f (R0.emb x) = proV m c x)

theorem inv_zero (c : Dev nD) (f : scrM.view.ty.Contents (Elt F)) : Inv m c 0 f :=
  ⟨fun _ _ h => absurd h (Nat.not_lt_zero _), fun h => absurd h (by decide)⟩

/-! ## One point's stores keep the invariant -/

variable {m}

/-- A slab element is outside another point's slab when the two points are less than 16 apart. -/
theorem slab_apart (t t' : Fin cfg0.N) (h : IsPipe t) (h' : IsPipe t') (hlt : t'.val < t.val) (hle : t.val ≤ t'.val + 15)
    (w : (R1 t h).shape.Idx → Elt F .f32) (L : List (View.Piece (Elt F) S2x4096x512 .f32)) (f : scrM.view.ty.Contents (Elt F))
    (x : S1x512x512.Idx) :
    scrM.view.read (Elt F) (scrM.view.writes (Elt F) f ((⟨R1 t h, w⟩ : View.Piece (Elt F) S2x4096x512 .f32) :: L)) ((R1 t' h').emb x)
      = scrM.view.read (Elt F) (scrM.view.writes (Elt F) f L) ((R1 t' h').emb x) := by
  obtain ⟨e0, e1, -⟩ := R1_emb t' h' x
  obtain ⟨x0, x1, -⟩ := idx_lt x
  by_cases hs : (t'.val / 8 + 1) % 2 = (t.val / 8 + 1) % 2
  · refine View.read_writes_cons_unit_of_not_mem scrM.view f _ w L _ (off1_t t) 1 ?_
    show (((R1 t' h').emb x) 1).val < 512 * (t.val % 8) ∨ 512 * (t.val % 8) + 512 ≤ (((R1 t' h').emb x) 1).val
    rw [e1]; omega
  · refine View.read_writes_cons_unit_of_not_mem scrM.view f _ w L _ (off1_t t) 0 ?_
    show (((R1 t' h').emb x) 0).val < (t.val / 8 + 1) % 2 ∨ (t.val / 8 + 1) % 2 + 1 ≤ (((R1 t' h').emb x) 0).val
    rw [e0]; omega

/-- An element of slot 0 is outside every slab of batch 0 (those go to slot 1). -/
theorem slab_off_slot0 (t : Fin cfg0.N) (h : IsPipe t) (ht : t.val < 8)
    (w : (R1 t h).shape.Idx → Elt F .f32) (L : List (View.Piece (Elt F) S2x4096x512 .f32)) (f : scrM.view.ty.Contents (Elt F))
    (x : S1x4096x512.Idx) :
    scrM.view.read (Elt F) (scrM.view.writes (Elt F) f ((⟨R1 t h, w⟩ : View.Piece (Elt F) S2x4096x512 .f32) :: L)) (R0.emb x)
      = scrM.view.read (Elt F) (scrM.view.writes (Elt F) f L) (R0.emb x) := by
  obtain ⟨e0, -, -⟩ := R0_emb x
  obtain ⟨x0, -, -⟩ := idx_lt' x
  refine View.read_writes_cons_unit_of_not_mem scrM.view f _ w L _ (off1_t t) 0 ?_
  show ((R0.emb x) 0).val < (t.val / 8 + 1) % 2 ∨ (t.val / 8 + 1) % 2 + 1 ≤ ((R0.emb x) 0).val
  rw [e0]; omega

variable (m)

/-- After the first point's two stores. -/
theorem inv_first (c : Dev nD) (t : Fin cfg0.N) (ht : t.val = 0) (hP : IsPipe t) (f : scrM.view.ty.Contents (Elt F)) :
    Inv m c 1 (scrM.view.writes (Elt F) f [slabP t hP (iblk m c 1 t) (iblk m c 3 t), proP (iblk m c 0 t) (iblk m c 3 t)]) := by
  have e : t = t0 := Fin.ext ht
  subst e
  refine ⟨fun t' h' hlt _ x => ?_, fun _ _ x => ?_⟩
  · have e' : t' = t0 := Fin.ext (by show t'.val = 0; omega)
    subst e'
    exact View.read_writes_cons_emb scrM.view f (R1 t0 hP) _ _ x
  · rw [slab_off_slot0 t0 hP (by show (0 : ℕ) < 8; decide)]
    exact View.read_writes_cons_emb scrM.view f R0 _ _ x

/-- After a later pipelined point's one store. -/
theorem inv_mid (c : Dev nD) (t : Fin cfg0.N) (ht : 1 ≤ t.val) (hP : IsPipe t) (f : scrM.view.ty.Contents (Elt F))
    (hI : Inv m c t.val f) :
    Inv m c (t.val + 1) (scrM.view.writes (Elt F) f [slabP t hP (iblk m c 1 t) (iblk m c 3 t)]) := by
  refine ⟨fun t' h' hlt hle x => ?_, fun _ h8 x => ?_⟩
  · by_cases e : t' = t
    · subst e
      exact View.read_writes_cons_emb scrM.view f (R1 t' hP) _ _ x
    · have hne : t'.val ≠ t.val := fun h => e (Fin.ext h)
      rw [slab_apart t t' hP h' (by omega) (by omega)]
      exact hI.1 t' h' (by omega) (by omega) x
  · rw [slab_off_slot0 t hP (by omega)]
    exact hI.2 ht (by omega) x

/-- A point of the last batch stores nothing into the scratch. -/
theorem inv_last (c : Dev nD) (t : Fin cfg0.N) (hP : ¬ IsPipe t) (f : scrM.view.ty.Contents (Elt F)) (hI : Inv m c t.val f) :
    Inv m c (t.val + 1) f := by
  have h24 : 24 ≤ t.val := by have := (isPipe_iff t).not.mp hP; omega
  refine ⟨fun t' h' hlt hle x => ?_, fun _ h8 => absurd h8 (by omega)⟩
  have := (isPipe_iff t').mp h'
  exact hI.1 t' h' (by omega) (by omega) x

/-! ## What the whole-slot read sees after the point's stores -/

/-- Once point `t`'s stores are in, the slot it reads is `SupV t`. -/
theorem supRead_eq (c : Dev nD) (t : Fin cfg0.N) (f : scrM.view.ty.Contents (Elt F)) (hI : Inv m c (t.val + 1) f) :
    supRead t f = SupV m c t := by
  have hN : t.val < 32 := lt_of_lt_of_eq t.isLt N_32
  funext y
  obtain ⟨i0, i1, i2⟩ := R2_idx t y
  obtain ⟨y0, y1, y2⟩ := idx_lt' y
  show scrM.view.read (Elt F) f ((R2 t).toLoadRect.idx y) = _
  unfold SupV
  by_cases h8 : t.val < 8
  · rw [if_pos h8]
    have e : (R2 t).toLoadRect.idx y = R0.emb y := funext fun a => Fin.ext (by
      obtain ⟨e0, e1, e2⟩ := R0_emb y
      match a with
      | ⟨0, _⟩ => show (((R2 t).toLoadRect.idx y) 0).val = ((R0.emb y) 0).val; rw [i0, e0]; omega
      | ⟨1, _⟩ => show (((R2 t).toLoadRect.idx y) 1).val = ((R0.emb y) 1).val; rw [i1, e1]
      | ⟨2, _⟩ => show (((R2 t).toLoadRect.idx y) 2).val = ((R0.emb y) 2).val; rw [i2, e2])
    rw [e]
    exact hI.2 (by omega) (by omega) y
  · rw [if_neg h8]
    have hp : (prevSlab t y).val = 8 * (t.val / 8 - 1) + (y 1).val / 512 := by
      show (8 * (t.val / 8 - 1) + (y 1).val / 512) % 32 = _
      omega
    have hP' : IsPipe (prevSlab t y) := (isPipe_iff _).mpr (by rw [hp]; omega)
    have e : (R2 t).toLoadRect.idx y = (R1 (prevSlab t y) hP').emb (localRow y) := funext fun a => Fin.ext (by
      obtain ⟨e0, e1, e2⟩ := R1_emb (prevSlab t y) hP' (localRow y)
      have l0 : ((localRow y) 0).val = 0 := rfl
      have l1 : ((localRow y) 1).val = (y 1).val % 512 := rfl
      have l2 : ((localRow y) 2).val = (y 2).val := rfl
      match a with
      | ⟨0, _⟩ => show (((R2 t).toLoadRect.idx y) 0).val = (((R1 (prevSlab t y) hP').emb (localRow y)) 0).val; rw [i0, e0, hp, l0]; omega
      | ⟨1, _⟩ => show (((R2 t).toLoadRect.idx y) 1).val = (((R1 (prevSlab t y) hP').emb (localRow y)) 1).val; rw [i1, e1, hp, l1]; omega
      | ⟨2, _⟩ => show (((R2 t).toLoadRect.idx y) 2).val = (((R1 (prevSlab t y) hP').emb (localRow y)) 2).val; rw [i2, e2, l2])
    rw [e]
    exact hI.1 (prevSlab t y) hP' (by rw [hp]; omega) (by rw [hp]; omega) (localRow y)

end Cert.Proof.KernelIdeal

end
-- ==== Proof.Run.lean ====
/-
  The pipeline's proof data and the body obligation. What each window's staging buffer holds after the body: an input
  tile stays the block of its array the schedule put there; the output tile is adj-tile · (the slot the point reads) +
  bias, with the slot the definite array of the schedule module. Between points the body's invariant is the scratch at
  SOME contents satisfying the schedule's invariant; each kind of point (first; pipelined; last batch) is one run of
  the body, and the schedule module's lemmas carry the invariant across it and name what the slot read saw.
-/
import proofs.«104165_g71863392796808_cont_9to1_m_899_14_alg».proof.Proof.Sched
import Idealize.ShloMosaic.Lib.Pipeline.Kit

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch at some contents that satisfy the schedule's invariant before point `k`. -/
def Φs (c : Dev nD) (k : Fin (cfg0.N + 1)) : sProp 𝕄 :=
  iprop(∃ f : scrM.view.ty.Contents (Elt F), (scrM.view.loc (c : Thread nD τ) ↦[scrM.view.set]{fullShare} f) ∗ ⌜Inv m c k.val f⌝)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (iblk m c 2 t) (SupV m c t) (iblk m c 4 t)
  Φ k := Φs m c k
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

abbrev 𝒱₀ : Variants := Variants.none

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outv (iblk m c 2 t) (SupV m c t) (iblk m c 4 t) := by dsimp only [dats]

/-- Every input window's current staging buffer holds its block, fetched at the point or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rfl) t d).trans
    (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rfl) t d).trans
    (by unfold Dat.fetched Dat.blockOf iblk; rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rfl) t d).trans
    (by unfold Dat.fetched Dat.blockOf iblk; rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rfl) t d).trans
    (by unfold Dat.fetched Dat.blockOf iblk; rfl)

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_pre (c : Dev nD) (t : Fin cfg0.N) :
    (dats m 0 c).Φ t.castSucc = iprop(∃ f : scrM.view.ty.Contents (Elt F), (scrM.view.loc (c : Thread nD τ) ↦[scrM.view.set]{fullShare} f) ∗ ⌜Inv m c t.val f⌝) := rfl
theorem Φ_post (c : Dev nD) (t : Fin cfg0.N) :
    (dats m 0 c).Φ t.succ = iprop(∃ f : scrM.view.ty.Contents (Elt F), (scrM.view.loc (c : Thread nD τ) ↦[scrM.view.set]{fullShare} f) ∗ ⌜Inv m c (t.val + 1) f⌝) := rfl

/-- The body obligation, by the kind of point. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  simp only [before_0, before_1, before_2, before_3, before_4, after_0, after_1, after_2, after_3, after_4, after_5]
  rw [Φ_pre, Φ_post]
  by_cases hP : IsPipe t
  · by_cases hF : IsFirst t
    · -- the first point
      have h0 : t.val = 0 := (isFirst_iff t).mp hF
      iintro ⟨⟨%f, Ha, %hI⟩, ⟨%Wt, %hW, HO⟩, ⟨%d0, H0⟩, ⟨%d1, H1⟩, ⟨%d2, H2⟩, ⟨%d3, H3⟩, ⟨%d4, H4⟩, ⟨%d5, H5⟩⟩
      have hI' : Inv m c (t.val + 1) (scrM.view.writes (Elt F) f [slabP t hP (iblk m c 1 t) (iblk m c 3 t), proP (iblk m c 0 t) (iblk m c 3 t)]) := by
        rw [h0]; exact inv_first m c t h0 hP f
      have hs := supRead_eq m c t _ hI'
      iapply (run_first c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (iblk m c 0 t) (iblk m c 1 t) (iblk m c 2 t) (iblk m c 3 t) (iblk m c 4 t) f hF hP)
      rw [hs]
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [Ha]; · iexact Ha
      iintro ⟨⟨H0, H1, H2, H3, H4⟩, H5, Ha⟩
      isplitl [Ha]
      · iexists _; isplitl [Ha]; · iexact Ha
        ipureintro; exact hI'
      isplitl [HO]; · iapply (owesAt_intro m c); iexact HO
      isplitl [H0]; · iexact H0
      isplitl [H1]; · iexact H1
      isplitl [H2]; · iexact H2
      isplitl [H3]; · iexact H3
      isplitl [H4]; · iexact H4
      iexact H5
    · -- a later pipelined point
      have h1 : 1 ≤ t.val := by have := (isFirst_iff t).not.mp hF; omega
      iintro ⟨⟨%f, Ha, %hI⟩, ⟨%Wt, %hW, HO⟩, ⟨%d0, H0⟩, ⟨%d1, H1⟩, ⟨%d2, H2⟩, ⟨%d3, H3⟩, ⟨%d4, H4⟩, ⟨%d5, H5⟩⟩
      have hI' : Inv m c (t.val + 1) (scrM.view.writes (Elt F) f [slabP t hP (iblk m c 1 t) (iblk m c 3 t)]) := inv_mid m c t h1 hP f hI
      have hs := supRead_eq m c t _ hI'
      iapply (run_mid c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (iblk m c 0 t) (iblk m c 1 t) (iblk m c 2 t) (iblk m c 3 t) (iblk m c 4 t) f hF hP)
      rw [hs]
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [Ha]; · iexact Ha
      iintro ⟨⟨H0, H1, H2, H3, H4⟩, H5, Ha⟩
      isplitl [Ha]
      · iexists _; isplitl [Ha]; · iexact Ha
        ipureintro; exact hI'
      isplitl [HO]; · iapply (owesAt_intro m c); iexact HO
      isplitl [H0]; · iexact H0
      isplitl [H1]; · iexact H1
      isplitl [H2]; · iexact H2
      isplitl [H3]; · iexact H3
      isplitl [H4]; · iexact H4
      iexact H5
  · -- a point of the last batch
    have hF : ¬ IsFirst t := fun h => by
      have := (isFirst_iff t).mp h; have := (isPipe_iff t).not.mp hP; omega
    iintro ⟨⟨%f, Ha, %hI⟩, ⟨%Wt, %hW, HO⟩, ⟨%d0, H0⟩, ⟨%d1, H1⟩, ⟨%d2, H2⟩, ⟨%d3, H3⟩, ⟨%d4, H4⟩, ⟨%d5, H5⟩⟩
    have hI' : Inv m c (t.val + 1) f := inv_last m c t hP f hI
    have hs := supRead_eq m c t _ hI'
    iapply (run_last c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (iblk m c 0 t) (iblk m c 1 t) (iblk m c 2 t) (iblk m c 3 t) (iblk m c 4 t) f hF hP)
    rw [hs]
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [Ha]; · iexact Ha
    iintro ⟨⟨H0, H1, H2, H3, H4⟩, H5, Ha⟩
    isplitl [Ha]
    · iexists _; isplitl [Ha]; · iexact Ha
      ipureintro; exact hI'
    isplitl [HO]; · iapply (owesAt_intro m c); iexact HO
    isplitl [H0]; · iexact H0
    isplitl [H1]; · iexact H1
    isplitl [H2]; · iexact H2
    isplitl [H3]; · iexact H3
    isplitl [H4]; · iexact H4
    iexact H5

/-! ## The launch -/

/-- The scratch buffer, whole at the full share, is the scratch memref's elements at some contents, and back. -/
theorem scr_in (c : Dev nD) (f : Buf (Elt F) ((c : Thread nD τ).loc cc0_scratch0)) :
    ((((c : Thread nD τ).loc cc0_scratch0) ↦{fullShare} f) : sProp 𝕄)
      ⊢ iprop(∃ g : scrM.view.ty.Contents (Elt F), (scrM.view.loc (c : Thread nD τ) ↦[scrM.view.set]{fullShare} g)) := by
  rw [← owns_whole (c : Thread nD τ) cc0_scratch0 fullShare f]
  unfold owns
  iintro ⟨%g, %hg, Hg⟩
  iexists g; iexact Hg

theorem scr_out (c : Dev nD) (g : scrM.view.ty.Contents (Elt F)) :
    ((scrM.view.loc (c : Thread nD τ) ↦[scrM.view.set]{fullShare} g) : sProp 𝕄)
      ⊢ iprop(∃ f : Buf (Elt F) ((c : Thread nD τ).loc cc0_scratch0), (((c : Thread nD τ).loc cc0_scratch0) ↦{fullShare} f)) :=
  (owns_intro (c : Thread nD τ) scrM fullShare g).trans (by
    rw [owns_whole]
    iintro H; iexists _; iexact H)

theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [scopedRest0_eq]
  refine (show _ ⊢ (iprop(∃ g : scrM.view.ty.Contents (Elt F), (scrM.view.loc (c : Thread nD τ) ↦[scrM.view.set]{fullShare} g)) : sProp 𝕄) from ?_).trans ?_
  · iintro ⟨-, ⟨%f, Hf⟩⟩
    iapply (scr_in c f); iexact Hf
  · show _ ⊢ Φs m c 0
    unfold Φs
    iintro ⟨%g, Hg⟩
    iexists g
    isplitl [Hg]; · iexact Hg
    ipureintro; exact inv_zero m c g

theorem hout (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  rw [scopedRest0_eq]
  show Φs m c _ ⊢ _
  unfold Φs
  iintro ⟨%g, Hg, -⟩
  isplitr; · iempintro
  iapply (scr_out c g); iexact Hg

/-- The five distinct buffers behind the six windows' arrays. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1) ↦{fullShare} W main_v1)) :=
  bigSep_eq_bigSepL_of_eq [main_arg0, main_arg1, main_arg2, main_v0, main_v1] (by decide) (by decide) _

/-- The x array is read through two windows: its full share is dealt to them in halves; every other array goes to its one
    window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  rw [(arr_whole0 0).set_eq_univ, (arr_whole0 2).set_eq_univ, (arr_whole0 3).set_eq_univ,
    (arr_whole0 4).set_eq_univ, (arr_whole0 5).set_eq_univ]
  beta_reduce
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl]
  iintro ⟨H0, H1, H2, H3, H4⟩
  ihave ⟨Ha, Hb⟩ := (pointsTo_share (PosShare.mem_left_op_right fullShare)).1 $$ H0
  isplitl [Ha]; · iexact Ha
  isplitl [Hb]; · iexact Hb
  isplitl [H1]; · iexact H1
  isplitl [H2]; · iexact H2
  isplitl [H3]; · iexact H3
  iexact H4

/-- What the run concludes: every window's array at the library's account of it, and the bias argument (no window's
    array) as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

theorem run_main : θ_run defs (onTc (τ := τ) (main (F := F))) ⟨m, fun _ => 0, ρ⟩ (RunPost m) :=
  Pipeline.θ_run_region_noSem_shared cfgs (dats m) () cellOf_inj 0 winFacts₀0 emb₁ defs₀ 𝒱₀ m ρ main
    (hbody := fun c => (body_obligation m c).loose) (hne := block_pos0) (harr := arr_whole0) (hstage := stage_whole0)
    (howed := fun _ _ => rfl)
    (u₀ := Rounds.initOf (Pipeline.cells cfgs cellOf_inj) (Pipeline.launchToks cfgs cellOf_inj)) (hu₀ := .rfl)
    (V := V m) (hmain := hmain m 𝒱₀) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.Proof.KernelIdeal.run_main' depends on axioms: [propext, Classical.choice, Quot.sound] -/
#guard_msgs in #print axioms run_main

/-! ## Reading the run's post -/

variable {m ρ}

theorem final_arg0 {r : PUnit × MemSt nD τ sig (Elt F)} (h : RunPost m r) (c : Dev nD) :
    r.2.mem ((c : Thread nD τ).loc main_arg0) = m ((c : Thread nD τ).loc main_arg0) :=
  ((h c).1 0).trans (((dats m 0 c).arrAt_in 0 rfl _).trans (V_main_arg0 m c))
theorem final_arg1 {r : PUnit × MemSt nD τ sig (Elt F)} (h : RunPost m r) (c : Dev nD) :
    r.2.mem ((c : Thread nD τ).loc main_arg1) = m ((c : Thread nD τ).loc main_arg1) :=
  ((h c).1 2).trans (((dats m 0 c).arrAt_in 2 rfl _).trans (V_main_arg1 m c))
theorem final_arg2 {r : PUnit × MemSt nD τ sig (Elt F)} (h : RunPost m r) (c : Dev nD) :
    r.2.mem ((c : Thread nD τ).loc main_arg2) = m ((c : Thread nD τ).loc main_arg2) :=
  ((h c).1 3).trans (((dats m 0 c).arrAt_in 3 rfl _).trans (V_main_arg2 m c))
theorem final_arg3 {r : PUnit × MemSt nD τ sig (Elt F)} (h : RunPost m r) (c : Dev nD) :
    r.2.mem ((c : Thread nD τ).loc main_arg3) = m ((c : Thread nD τ).loc main_arg3) :=
  ((h c).2 main_arg3 (Pipeline.mem_restRefs_of main_arg3 rfl (by decide))).trans (V_main_arg3 m c)
theorem final_out {r : PUnit × MemSt nD τ sig (Elt F)} (h : RunPost m r) (c : Dev nD) :
    r.2.mem ((c : Thread nD τ).loc main_v1) = (dats m 0 c).arrAt 5 cfg0.N :=
  (h c).1 5

variable (m ρ)

/-- Every weakly fair execution terminates, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨final_arg0 h c, final_arg1 h c, final_arg2 h c, final_arg3 h c⟩) (run_main m ρ)

end Cert.Proof.KernelIdeal

end
-- ==== Proof.Blocks.lean ====
/-
  The blocks the pipeline hands the kernel, read at an index of the array they are cut from.

  Point t = 8 i + j of the grid (i < 4, j < 8). The features are read through two windows: the whole first graph
  (block [1, 4096, 512] at block index (0, 0, 0)) and, while i < 3, 512 rows of the next graph (block [1, 512, 512] at
  block index (i + 1, j, 0)); the adjacency through 512 of graph i's rows (block [1, 512, 4096] at (i, j, 0)); the
  weights and the bias row whole. A block's element at local index y is the array's element at
  block index × block size + y on every axis. The bias row is the bias reshaped from [512] to [1, 512] before the
  region is entered. The result's window moves like the adjacency's: block [1, 512, 512] at (i, j, 0).
-/
import proofs.«104165_g71863392796808_cont_9to1_m_899_14_alg».proof.Proof.Sched
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Proof.KernelIdeal

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-! ## The index maps by the point's number -/

/-- The first graph's window stays at block (0, 0, 0). -/
theorem idx_facts0 : ∀ t : Fin cfg0.N, win0_0.index t (0 : Fin 3) = 0 ∧ win0_0.index t (1 : Fin 3) = 0 ∧ win0_0.index t (2 : Fin 3) = 0 :=
  (by decide +kernel : ∀ t : Fin grid0.N, _)

/-- The next graph's window: block (i + 1, j, 0) while i < 3 (afterwards it stays at (3, 0, 0)). -/
theorem idx_facts1 : ∀ t : Fin cfg0.N, (t.val < 24 → win0_1.index t (0 : Fin 3) = t.val / 8 + 1 ∧ win0_1.index t (1 : Fin 3) = t.val % 8)
    ∧ (24 ≤ t.val → win0_1.index t (0 : Fin 3) = 3 ∧ win0_1.index t (1 : Fin 3) = 0) ∧ win0_1.index t (2 : Fin 3) = 0 :=
  (by decide +kernel : ∀ t : Fin grid0.N, _)

/-- The adjacency's window: block (i, j, 0). -/
theorem idx_facts2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)

/-- The weights' window stays at block (0, 0). -/
theorem idx_facts3 : ∀ t : Fin cfg0.N, win0_3.index t (0 : Fin 2) = 0 ∧ win0_3.index t (1 : Fin 2) = 0 :=
  (by decide +kernel : ∀ t : Fin grid0.N, _)

/-- The bias row's window stays at block (0, 0). -/
theorem idx_facts4 : ∀ t : Fin cfg0.N, win0_4.index t (0 : Fin 2) = 0 ∧ win0_4.index t (1 : Fin 2) = 0 :=
  (by decide +kernel : ∀ t : Fin grid0.N, _)

/-- The result's window: block (i, j, 0). -/
theorem idx_facts5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)

/-! ## The input blocks at an index -/

/-- The first graph's features, whole: the block's (0, r, d) is the array's (0, r, d). -/
theorem blk0 (c : Dev nD) (t : Fin cfg0.N) (r : Fin 4096) (d : Fin 512) :
    iblk m c 0 t (ix3 (0 : Fin 1) r d : S1x4096x512.Idx)
      = (V m c main_arg0 : S4x4096x512.Idx → Elt F .f32) (ix3 (0 : Fin 4) r d) := by
  obtain ⟨e0, e1, e2⟩ := idx_facts0 t
  show (V m c main_arg0 : S4x4096x512.Idx → Elt F .f32) (((cfg0.win 0).blk t).view.emb (ix3 (0 : Fin 1) r d : S1x4096x512.Idx)) = _
  refine congrArg _ (funext fun a => Fin.ext ?_)
  match a with
  | ⟨0, _⟩ => show win0_0.index t (0 : Fin 3) * 1 + 1 * 0 = 0; omega
  | ⟨1, _⟩ => show win0_0.index t (1 : Fin 3) * 4096 + 1 * r.val = r.val; omega
  | ⟨2, _⟩ => show win0_0.index t (2 : Fin 3) * 512 + 1 * d.val = d.val; omega

/-- The next graph's rows, while there is a next graph: the block's (0, r, d) is the array's (i + 1, 512 j + r, d). -/
theorem blk1 (c : Dev nD) (t : Fin cfg0.N) (ht : t.val < 24) (r d : Fin 512) :
    iblk m c 1 t (ix3 (0 : Fin 1) r d : S1x512x512.Idx)
      = (V m c main_arg0 : S4x4096x512.Idx → Elt F .f32)
          (ix3 (⟨t.val / 8 + 1, by omega⟩ : Fin 4) (⟨512 * (t.val % 8) + r.val, by have := r.isLt; omega⟩ : Fin 4096) d) := by
  obtain ⟨e01, -, e2⟩ := idx_facts1 t
  obtain ⟨e0, e1⟩ := e01 ht
  show (V m c main_arg0 : S4x4096x512.Idx → Elt F .f32) (((cfg0.win 1).blk t).view.emb (ix3 (0 : Fin 1) r d : S1x512x512.Idx)) = _
  refine congrArg _ (funext fun a => Fin.ext ?_)
  match a with
  | ⟨0, _⟩ => show win0_1.index t (0 : Fin 3) * 1 + 1 * 0 = t.val / 8 + 1; omega
  | ⟨1, _⟩ => show win0_1.index t (1 : Fin 3) * 512 + 1 * r.val = 512 * (t.val % 8) + r.val; omega
  | ⟨2, _⟩ => show win0_1.index t (2 : Fin 3) * 512 + 1 * d.val = d.val; omega

/-- Graph i's adjacency rows: the block's (0, r, k) is the array's (i, 512 j + r, k). -/
theorem blk2 (c : Dev nD) (t : Fin cfg0.N) (r : Fin 512) (k : Fin 4096) :
    iblk m c 2 t (ix3 (0 : Fin 1) r k : S1x512x4096.Idx)
      = (V m c main_arg1 : S4x4096x4096.Idx → Elt F .f32)
          (ix3 (⟨t.val / 8, by have := lt_of_lt_of_eq t.isLt N_32; omega⟩ : Fin 4)
            (⟨512 * (t.val % 8) + r.val, by have := r.isLt; omega⟩ : Fin 4096) k) := by
  obtain ⟨e0, e1, e2⟩ := idx_facts2 t
  show (V m c main_arg1 : S4x4096x4096.Idx → Elt F .f32) (((cfg0.win 2).blk t).view.emb (ix3 (0 : Fin 1) r k : S1x512x4096.Idx)) = _
  refine congrArg _ (funext fun a => Fin.ext ?_)
  match a with
  | ⟨0, _⟩ => show win0_2.index t (0 : Fin 3) * 1 + 1 * 0 = t.val / 8; omega
  | ⟨1, _⟩ => show win0_2.index t (1 : Fin 3) * 512 + 1 * r.val = 512 * (t.val % 8) + r.val; omega
  | ⟨2, _⟩ => show win0_2.index t (2 : Fin 3) * 4096 + 1 * k.val = k.val; omega

/-- The weights, whole. -/
theorem blk3 (c : Dev nD) (t : Fin cfg0.N) (d f : Fin 512) :
    iblk m c 3 t (ix2 d f : S512x512.Idx) = (V m c main_arg2 : S512x512.Idx → Elt F .f32) (ix2 d f) := by
  obtain ⟨e0, e1⟩ := idx_facts3 t
  show (V m c main_arg2 : S512x512.Idx → Elt F .f32) (((cfg0.win 3).blk t).view.emb (ix2 d f : S512x512.Idx)) = _
  refine congrArg _ (funext fun a => Fin.ext ?_)
  match a with
  | ⟨0, _⟩ => show win0_3.index t (0 : Fin 2) * 512 + 1 * d.val = d.val; omega
  | ⟨1, _⟩ => show win0_3.index t (1 : Fin 2) * 512 + 1 * f.val = f.val; omega

/-- The bias row as the region finds it: the bias, reshaped from [512] to one row. -/
theorem V_main_v0 (c : Dev nD) :
    (V m c main_v0 : S1x512.Idx → Elt F .f32)
      = shapeCast S1x512 (m ((c : Thread nD τ).loc main_arg3) : S512.Idx → Elt F .f32) shapeCasts_S512_S1x512 := by
  dsimp only [V, hostOps0]
  after_results
  rfl

/-- The bias row: the block's (0, f) is the bias at f. -/
theorem blk4 (c : Dev nD) (t : Fin cfg0.N) (f : Fin 512) :
    iblk m c 4 t (ix2 (0 : Fin 1) f : S1x512.Idx) = (m ((c : Thread nD τ).loc main_arg3) : S512.Idx → Elt F .f32) (ix1 f) := by
  obtain ⟨e0, e1⟩ := idx_facts4 t
  show (V m c main_v0 : S1x512.Idx → Elt F .f32) (((cfg0.win 4).blk t).view.emb (ix2 (0 : Fin 1) f : S1x512.Idx)) = _
  have e : ((cfg0.win 4).blk t).view.emb (ix2 (0 : Fin 1) f : S1x512.Idx) = (ix2 (0 : Fin 1) f : S1x512.Idx) :=
    funext fun a => Fin.ext (by
      match a with
      | ⟨0, _⟩ => show win0_4.index t (0 : Fin 2) * 1 + 1 * 0 = 0; omega
      | ⟨1, _⟩ => show win0_4.index t (1 : Fin 2) * 512 + 1 * f.val = f.val; omega)
  rw [e, V_main_v0]
  exact shapeCast_a_1a_apply _ _ (0 : Fin 1) f

/-! ## The result's blocks -/

/-- An index of the result array is in point `t`'s block iff each coordinate is in the block's range on its axis. -/
theorem mem_blk5 (t : Fin cfg0.N) (i : S4x4096x512.Idx) :
    i ∈ ((cfg0.win 5).blk t).view.set ↔ ∀ a : Fin 3, win0_5.index t a * S1x512x512.size a ≤ (i a).val ∧ (i a).val < win0_5.index t a * S1x512x512.size a + S1x512x512.size a := by
  show i ∈ ((View.whole main_v1).slice (win0_5.rect t)).set ↔ _
  rw [View.set_slice_whole, Rect.mem_set_unit]
  exact Iff.rfl

/-- The result block's (0, r, f) at point `t` is the array's (i, 512 j + r, f). -/
theorem emb5 (t : Fin cfg0.N) (r f : Fin 512) :
    ((cfg0.win 5).blk t).view.emb (ix3 (0 : Fin 1) r f : S1x512x512.Idx)
      = (ix3 (⟨t.val / 8, by have := lt_of_lt_of_eq t.isLt N_32; omega⟩ : Fin 4)
          (⟨512 * (t.val % 8) + r.val, by have := r.isLt; omega⟩ : Fin 4096) f : S4x4096x512.Idx) := by
  obtain ⟨e0, e1, e2⟩ := idx_facts5 t
  refine funext fun a => Fin.ext ?_
  match a with
  | ⟨0, _⟩ => show win0_5.index t (0 : Fin 3) * 1 + 1 * 0 = t.val / 8; omega
  | ⟨1, _⟩ => show win0_5.index t (1 : Fin 3) * 512 + 1 * r.val = 512 * (t.val % 8) + r.val; omega
  | ⟨2, _⟩ => show win0_5.index t (2 : Fin 3) * 512 + 1 * f.val = f.val; omega

/-- Index (i, n, f) of the result array is in the block of point 8 i + n / 512, … -/
theorem mem_blk5_of (t : Fin cfg0.N) (i : S4x4096x512.Idx) (ht : t.val = 8 * (i 0).val + (i 1).val / 512) :
    i ∈ ((cfg0.win 5).blk t).view.set := by
  have h0 : (i 0).val < 4 := (i 0).isLt
  have h1 : (i 1).val < 4096 := (i 1).isLt
  have h2 : (i 2).val < 512 := (i 2).isLt
  obtain ⟨e0, e1, e2⟩ := idx_facts5 t
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 512 ≤ (i 2).val ∧ (i 2).val < win0_5.index t (2 : Fin 3) * 512 + 512; omega

/-- … at the local index (0, n % 512, f). -/
theorem emb5_of (t : Fin cfg0.N) (i : S4x4096x512.Idx) (ht : t.val = 8 * (i 0).val + (i 1).val / 512) :
    ((cfg0.win 5).blk t).view.emb
        (ix3 (0 : Fin 1) (⟨(i 1).val % 512, Nat.mod_lt _ (by decide)⟩ : Fin 512) (⟨(i 2).val, (i 2).isLt⟩ : Fin 512) : S1x512x512.Idx) = i := by
  have h0 : (i 0).val < 4 := (i 0).isLt
  have h1 : (i 1).val < 4096 := (i 1).isLt
  rw [emb5]
  refine funext fun a => Fin.ext ?_
  match a with
  | ⟨0, _⟩ => show t.val / 8 = (i 0).val; omega
  | ⟨1, _⟩ => show 512 * (t.val % 8) + (i 1).val % 512 = (i 1).val; omega
  | ⟨2, _⟩ => rfl

/-- The result's blocks cover the array: every index is in some written-back block. -/
theorem cover5 (i : S4x4096x512.Idx) : ∃ t : Fin cfg0.N, (cfg0.win 5).flush t = true ∧ i ∈ ((cfg0.win 5).blk t).view.set := by
  have h0 : (i 0).val < 4 := (i 0).isLt
  have h1 : (i 1).val < 4096 := (i 1).isLt
  exact ⟨⟨8 * (i 0).val + (i 1).val / 512, by rw [N_32]; omega⟩, flush0_5 _, mem_blk5_of _ i rfl⟩

end Cert.Proof.KernelIdeal

end
-- ==== Proof.Payloads.lean ====
/-
  The kernel's three payloads read at an index.

  Each payload drops the leading unit axis of the blocks it loads, multiplies two matrices into the zero accumulator,
  and puts the unit axis back; the third also adds the bias row to every row of the product. Read at (0, r, c):

    payload 1 and 2 (the per-graph product x[i] · W, a block of rows):   ∑ d, x[0, r, d] * W[d, c]
    payload 3 (the adjacency product, a block of rows, plus the bias):   (∑ k, adj[0, r, k] * s[0, k, c]) + b[0, c]

  The sums are over the one contracted axis, in the extended reals: no rounding, no chunk order.
-/
import proofs.«104165_g71863392796808_cont_9to1_m_899_14_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace GraphConv.Kernel

open Idealize.ShloMosaic Idealize.ShloMosaic.ValueIdx Cert.KernelIdeal Cert.KernelIdeal.Gen

/-- A plain product, M×K by K×N, into the zero accumulator, read at (r, c): the sum over k of lhs[r, k] * rhs[k, c]. -/
theorem matmul_plain_zero_apply {M K N : ℕ} {φ₁ φ₂ : FTy} (lhs : FVec Ideal ⟨2, ![M, K]⟩ φ₁) (rhs : FVec Ideal ⟨2, ![K, N]⟩ φ₂)
    (r : Fin M) (c : Fin N) :
    matmul (DotDims.plain M K N) none lhs rhs (constant (F := Ideal) ⟨2, ![M, N]⟩ .f32 0x00000000#32) (ix2 r c)
      = ∑ k : Fin K, lhs (ix2 r k) * rhs (ix2 k c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- The first payload, the whole per-graph product x[i] · W (4096 rows), at (0, r, c). -/
theorem pay1_apply (v31 : Vec Ideal S1x4096x512 .f32) (v33 : Vec Ideal S512x512 .f32) (r : Fin 4096) (c : Fin 512) :
    k0_pay1 (F := Ideal) v31 v33 (ix3 (0 : Fin 1) r c) = ∑ d : Fin 512, v31 (ix3 (0 : Fin 1) r d) * v33 (ix2 d c) := by
  unfold k0_pay1
  refine (shapeCast_ab_1ab_apply _ _ (0 : Fin 1) r c).trans ?_
  refine (matmul_plain_zero_apply (M := 4096) (K := 512) (N := 512) _ v33 r c).trans ?_
  refine Finset.sum_congr rfl fun d _ => ?_
  rw [shapeCast_1ab_ab_apply]

/-- The second payload, a block of 512 rows of the per-graph product x[i] · W, at (0, r, c). -/
theorem pay2_apply (v31 : Vec Ideal S1x512x512 .f32) (v33 : Vec Ideal S512x512 .f32) (r c : Fin 512) :
    k0_pay2 (F := Ideal) v31 v33 (ix3 (0 : Fin 1) r c) = ∑ d : Fin 512, v31 (ix3 (0 : Fin 1) r d) * v33 (ix2 d c) := by
  unfold k0_pay2
  refine (shapeCast_ab_1ab_apply _ _ (0 : Fin 1) r c).trans ?_
  refine (matmul_plain_zero_apply (M := 512) (K := 512) (N := 512) _ v33 r c).trans ?_
  refine Finset.sum_congr rfl fun d _ => ?_
  rw [shapeCast_1ab_ab_apply]

/-- The third payload, a block of 512 rows of the adjacency times the per-graph product, plus the bias row, at (0, r, c). -/
theorem pay3_apply (v8 : Vec Ideal S1x512x4096 .f32) (v21 : Vec Ideal S1x4096x512 .f32) (v24 : Vec Ideal S1x512 .f32)
    (r c : Fin 512) :
    k0_pay3 (F := Ideal) v8 v21 v24 (ix3 (0 : Fin 1) r c)
      = (∑ k : Fin 4096, v8 (ix3 (0 : Fin 1) r k) * v21 (ix3 (0 : Fin 1) k c)) + v24 (ix2 (0 : Fin 1) c) := by
  unfold k0_pay3
  refine (shapeCast_ab_1ab_apply _ _ (0 : Fin 1) r c).trans ?_
  rw [addf_apply, shapeCast_self, broadcastTo_1b_ab_apply]
  refine congrArg (· + v24 (ix2 (0 : Fin 1) c)) ?_
  refine (matmul_plain_zero_apply (M := 512) (K := 4096) (N := 512) _ _ r c).trans ?_
  refine Finset.sum_congr rfl fun k _ => ?_
  rw [shapeCast_1ab_ab_apply, shapeCast_1ab_ab_apply]

end GraphConv.Kernel

end
-- ==== Proof.Spec.lean ====
/-
  The specification: a graph-convolution layer over a batch of four graphs.

  Arguments: features x : [4, 4096, 512], adjacency adj : [4, 4096, 4096], weights W : [512, 512], bias b : [512],
  all extended reals. The result, index by index:

      out[i, n, f] = (∑ k < 4096, adj[i, n, k] * (∑ d < 512, x[i, k, d] * W[d, f])) + b[f]

  The inner sum is the per-graph product x[i] · W (`support`); the outer one multiplies it by the adjacency on the left;
  the bias is added last. The nesting of the sums is part of the specification: nothing here uses distributivity, so no
  finiteness of the inputs is needed to compare a program with it.
-/
import Idealize.ShloMosaic.PureOps.Ideal
import Idealize.ShloMosaic.Lib.ValueIdx

noncomputable section

open scoped BigOperators

namespace GraphConv

open Idealize.ShloMosaic Idealize.ShloMosaic.ValueIdx

/-- The features' (and the result's) shape, [4, 4096, 512]. -/
abbrev FeatShape : Shape := ⟨3, ![4, 4096, 512]⟩
/-- The adjacency's shape, [4, 4096, 4096]. -/
abbrev AdjShape : Shape := ⟨3, ![4, 4096, 4096]⟩
/-- The weights' shape, [512, 512]. -/
abbrev WeightShape : Shape := ⟨2, ![512, 512]⟩
/-- The bias' shape, [512]. -/
abbrev BiasShape : Shape := ⟨1, ![512]⟩

/-- The per-graph product x[i] · W: at (i, k, f) the sum over d of x[i, k, d] * W[d, f]. -/
def support (x : FeatShape.Idx → EReal) (W : WeightShape.Idx → EReal) : FeatShape.Idx → EReal :=
  fun j => ∑ d : Fin 512, x (ix3 (j 0) (j 1) d) * W (ix2 d (j 2))

/-- The layer: at (i, n, f) the sum over k of adj[i, n, k] * support[i, k, f], plus b[f]. -/
def gcn (x : FeatShape.Idx → EReal) (adj : AdjShape.Idx → EReal) (W : WeightShape.Idx → EReal)
    (b : BiasShape.Idx → EReal) : FeatShape.Idx → EReal :=
  fun j => (∑ k : Fin 4096, adj (ix3 (j 0) (j 1) k) * support x W (ix3 (j 0) k (j 2))) + b (ix1 (j 2))

/-- `support` read at coordinates. -/
theorem support_apply (x : FeatShape.Idx → EReal) (W : WeightShape.Idx → EReal) (i : Fin 4) (k : Fin 4096) (f : Fin 512) :
    support x W (ix3 i k f) = ∑ d : Fin 512, x (ix3 i k d) * W (ix2 d f) := rfl

/-- `gcn` read at coordinates. -/
theorem gcn_apply (x : FeatShape.Idx → EReal) (adj : AdjShape.Idx → EReal) (W : WeightShape.Idx → EReal)
    (b : BiasShape.Idx → EReal) (i : Fin 4) (n : Fin 4096) (f : Fin 512) :
    gcn x adj W b (ix3 i n f)
      = (∑ k : Fin 4096, adj (ix3 i n k) * support x W (ix3 i k f)) + b (ix1 f) := rfl

/-- `gcn` read at coordinates, with the inner sum written out. -/
theorem gcn_apply' (x : FeatShape.Idx → EReal) (adj : AdjShape.Idx → EReal) (W : WeightShape.Idx → EReal)
    (b : BiasShape.Idx → EReal) (i : Fin 4) (n : Fin 4096) (f : Fin 512) :
    gcn x adj W b (ix3 i n f)
      = (∑ k : Fin 4096, adj (ix3 i n k) * ∑ d : Fin 512, x (ix3 i k d) * W (ix2 d f)) + b (ix1 f) := rfl

end GraphConv

end
-- ==== Proof.Value.lean ====
/-
  The idealized kernel's result as one function of its arguments.

  At the ideal floats every product in the body is a plain sum. The slot point (i, j) reads holds x[i] · W — by the first
  point's whole product when i = 0, and otherwise row by row by the slabs written during batch i − 1, each a product of
  512 rows of x[i] with W — so the tile the point stores is rows [512 j, 512 j + 512) of
      out[i, n, f] = (∑ k, adj[i, n, k] · (∑ d, x[i, k, d] · W[d, f])) + b[f],
  and the 32 tiles cover the result array.
-/
import proofs.«104165_g71863392796808_cont_9to1_m_899_14_alg».proof.Proof.Run
import proofs.«104165_g71863392796808_cont_9to1_m_899_14_alg».proof.Proof.Blocks
import proofs.«104165_g71863392796808_cont_9to1_m_899_14_alg».proof.Proof.Payloads
import proofs.«104165_g71863392796808_cont_9to1_m_899_14_alg».proof.Proof.Spec

set_option maxRecDepth 16384

noncomputable section

namespace Cert.Proof.KernelIdeal.Value

open Cert.KernelIdeal Cert.KernelIdeal.Gen Cert.Proof.KernelIdeal
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array the kernel is to end with: the graph convolution of the arguments as launched. -/
def Gout (c : Dev nD) : Buf (Elt Ideal) ((c : Thread nD τ).loc main_v1) :=
  GraphConv.gcn (m ((c : Thread nD τ).loc main_arg0)) (m ((c : Thread nD τ).loc main_arg1)) (m ((c : Thread nD τ).loc main_arg2))
    (m ((c : Thread nD τ).loc main_arg3))

theorem ix3_congr {n0 n1 n2 : Nat} {a a' : Fin n0} {b b' : Fin n1} {c c' : Fin n2} (ha : a.val = a'.val) (hb : b.val = b'.val)
    (hc : c.val = c'.val) : ix3 a b c = ix3 a' b' c' := by
  obtain rfl := Fin.ext ha; obtain rfl := Fin.ext hb; obtain rfl := Fin.ext hc; rfl

/-- The two scratch stores' payloads at an index: rows of a block times W. -/
theorem pro_apply (x0 : Vec Ideal S1x4096x512 .f32) (w : Vec Ideal S512x512 .f32) (k : Fin 4096) (f : Fin 512) :
    k0_pay1 (F := Ideal) (View.ld x0 r2) (View.ld w r5) (ix3 (0 : Fin 1) k f) = ∑ d : Fin 512, x0 (ix3 (0 : Fin 1) k d) * w (ix2 d f) := by
  rw [View.ld_unit_zero (S := S1x4096x512) hz3, View.ld_unit_zero (S := S512x512) hz2, GraphConv.Kernel.pay1_apply]
theorem slab_apply (xs : Vec Ideal S1x512x512 .f32) (w : Vec Ideal S512x512 .f32) (r f : Fin 512) :
    k0_pay2 (F := Ideal) (View.ld xs r3) (View.ld w r5) (ix3 (0 : Fin 1) r f) = ∑ d : Fin 512, xs (ix3 (0 : Fin 1) r d) * w (ix2 d f) := by
  rw [View.ld_unit_zero (S := S1x512x512) hz3, View.ld_unit_zero (S := S512x512) hz2, GraphConv.Kernel.pay2_apply]

/-- The slot point `t` reads is x[i] · W, row by row (i = t / 8). -/
theorem supV_apply (c : Dev nD) (t : Fin cfg0.N) (i : Fin 4) (hi : i.val = t.val / 8) (k : Fin 4096) (f : Fin 512) :
    SupV m c t (ix3 (0 : Fin 1) k f : S1x4096x512.Idx)
      = GraphConv.support (m ((c : Thread nD τ).loc main_arg0)) (m ((c : Thread nD τ).loc main_arg2)) (ix3 i k f) := by
  have hN : t.val < 32 := lt_of_lt_of_eq t.isLt N_32
  have e : ∀ (d : Fin 512) (a : Fin 4) (b : Fin 4096), a.val = i.val → b.val = k.val →
      (m ((c : Thread nD τ).loc main_arg0) : S4x4096x512.Idx → EReal) (ix3 a b d)
        = (m ((c : Thread nD τ).loc main_arg0) : S4x4096x512.Idx → EReal) (ix3 i k d) :=
    fun d a b ha hb => by rw [ix3_congr ha hb rfl]
  rw [GraphConv.support_apply]
  unfold SupV
  by_cases h8 : t.val < 8
  · rw [if_pos h8]
    unfold proV
    refine (pro_apply (iblk m c 0 t0) (iblk m c 3 t0) k f).trans ?_
    refine Finset.sum_congr rfl fun d _ => ?_
    rw [blk0, blk3, V_main_arg0, V_main_arg2]
    exact congrArg (· * _) (e d _ _ (by show (0 : ℕ) = i.val; omega) rfl)
  · rw [if_neg h8]
    unfold slabV
    have hk : k.val < 4096 := k.isLt
    have hp : (prevSlab t (ix3 (0 : Fin 1) k f : S1x4096x512.Idx)).val = 8 * (t.val / 8 - 1) + k.val / 512 := by
      show (8 * (t.val / 8 - 1) + k.val / 512) % 32 = _
      omega
    have ht' : (prevSlab t (ix3 (0 : Fin 1) k f : S1x4096x512.Idx)).val < 24 := by rw [hp]; omega
    refine (slab_apply (iblk m c 1 (prevSlab t (ix3 (0 : Fin 1) k f : S1x4096x512.Idx))) (iblk m c 3 (prevSlab t (ix3 (0 : Fin 1) k f : S1x4096x512.Idx)))
      (⟨k.val % 512, Nat.mod_lt _ (by decide)⟩ : Fin 512) f).trans ?_
    refine Finset.sum_congr rfl fun d _ => ?_
    rw [blk1 m c _ ht', blk3, V_main_arg0, V_main_arg2]
    exact congrArg (· * _) (e d _ _ (by show (prevSlab t (ix3 (0 : Fin 1) k f : S1x4096x512.Idx)).val / 8 + 1 = i.val; rw [hp]; omega)
      (by show 512 * ((prevSlab t (ix3 (0 : Fin 1) k f : S1x4096x512.Idx)).val % 8) + k.val % 512 = k.val; rw [hp]; omega))

/-- What point `t` writes back is its tile of the graph convolution. -/
theorem flushed5_eq (c : Dev nD) (t : Fin cfg0.N) :
    (dats m 0 c).flushed 5 t = ((cfg0.win 5).blk t).view.read (Elt Ideal) (Gout m c) := by
  have hN : t.val < 32 := lt_of_lt_of_eq t.isLt N_32
  show (cfg0.win 5).cut (grid0.coords t) ((dats m 0 c).after 5 t) = _
  rw [after_5]
  unfold outv
  rw [View.canon_unit_zero (S := S1x512x512) hz3, View.ld_unit_zero (S := S1x512x4096) hz3, View.ld_unit_zero (S := S1x512) hz2]
  funext j
  obtain ⟨u, r, f, rfl⟩ : ∃ (u : Fin 1) (r : Fin 512) (f : Fin 512), j = ix3 u r f := ⟨j 0, j 1, j 2, eq_ix3 j⟩
  obtain rfl : u = 0 := Subsingleton.elim _ _
  show k0_pay3 (F := Ideal) (iblk m c 2 t) (SupV m c t) (iblk m c 4 t) (ix3 (0 : Fin 1) r f)
    = Gout m c (((cfg0.win 5).blk t).view.emb (ix3 (0 : Fin 1) r f : S1x512x512.Idx))
  rw [GraphConv.Kernel.pay3_apply, emb5]
  unfold Gout
  rw [GraphConv.gcn_apply]
  congr 1
  · refine Finset.sum_congr rfl fun k _ => ?_
    rw [blk2, supV_apply m c t ⟨t.val / 8, by omega⟩ rfl k f, V_main_arg1]
  · exact blk4 m c t f

/-- The result array after the run. -/
theorem final5 (c : Dev nD) : (dats m 0 c).arrAt 5 cfg0.N = Gout m c :=
  (dats m 0 c).arrAt_eq_of_cover 5 (Gout m c) (fun t _ => flushed5_eq m c t) cover5

/-- The run, read: the result is the graph convolution of the arguments, which end as launched. -/
theorem run : θ_run defs (onTc (τ := τ) (main (F := Ideal))) ⟨m, fun _ => 0, ρ⟩ (fun r => ∀ c : Dev nD,
      r.2.mem ((c.tc : Thread nD τ).loc main_v1) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(final_out h c).trans (final5 m c), final_arg0 h c, final_arg1 h c, final_arg2 h c, final_arg3 h c⟩)
    (run_main m ρ)

end Cert.Proof.KernelIdeal.Value

end
-- ==== Proof.RefSide.lean ====
/-
  The reference program is the specification: its last stage, read index by index, is the graph-convolution layer
  `GraphConv.gcn` of its four arguments — the per-graph product x[i] · W, multiplied on the left by the adjacency, plus
  the bias broadcast over graphs and nodes. Both are the same nesting of sums, so the proof only identifies the indices
  at which the stages read their operands with the specification's coordinates.
-/
import proofs.«104165_g71863392796808_cont_9to1_m_899_14_alg».proof.Defs
import proofs.«104165_g71863392796808_cont_9to1_m_899_14_alg».proof.Proof.Gen.ReferenceIdeal.Read
import proofs.«104165_g71863392796808_cont_9to1_m_899_14_alg».proof.Proof.Spec

noncomputable section

open scoped BigOperators

namespace GraphConv.Reference

open Idealize.ShloMosaic Idealize.ShloMosaic.ValueIdx Cert.ReferenceIdeal Cert.ReferenceIdeal.Read

/-- The adjacency product reads the adjacency at (i, n, k) … -/
theorem lidx_adj (i : Fin 4) (n : Fin 4096) (f : Fin 512) (k : Fin 4096) :
    lidx_main_v1 (ix3 i n f) k = ix3 i n k :=
  funext fun a => Fin.ext (by match a with | ⟨0, _⟩ => rfl | ⟨1, _⟩ => rfl | ⟨2, _⟩ => rfl)

/-- … and the per-graph product at (i, k, f). -/
theorem ridx_adj (i : Fin 4) (n : Fin 4096) (f : Fin 512) (k : Fin 4096) :
    ridx_main_v1 (ix3 i n f) k = ix3 i k f :=
  funext fun a => Fin.ext (by match a with | ⟨0, _⟩ => rfl | ⟨1, _⟩ => rfl | ⟨2, _⟩ => rfl)

/-- The per-graph product reads the features at (i, k, d) … -/
theorem lidx_support (i : Fin 4) (k : Fin 4096) (f : Fin 512) (d : Fin 512) :
    lidx_main_v0 (ix3 i k f) d = ix3 i k d :=
  funext fun a => Fin.ext (by match a with | ⟨0, _⟩ => rfl | ⟨1, _⟩ => rfl | ⟨2, _⟩ => rfl)

/-- … and the weights at (d, f). -/
theorem ridx_support (i : Fin 4) (k : Fin 4096) (f : Fin 512) (d : Fin 512) :
    ridx_main_v0 (ix3 i k f) d = ix2 d f :=
  funext fun a => Fin.ext (by match a with | ⟨0, _⟩ => rfl | ⟨1, _⟩ => rfl)

/-- The two broadcasts read the bias at f. -/
theorem idx_bias (i : Fin 4) (n : Fin 4096) (f : Fin 512) :
    idx_main_v2 (idx_main_v3 (ix3 i n f)) = ix1 f :=
  funext fun a => Fin.ext (by match a with | ⟨0, _⟩ => rfl)

/-- The per-graph product stage is `support`. -/
theorem val_support (x0 : (⟨S4x4096x512, .f32⟩ : BufTy).Contents (Elt Ideal)) (x2 : (⟨S512x512, .f32⟩ : BufTy).Contents (Elt Ideal)) :
    val_main_v0 (F := Ideal) x0 x2 = support x0 x2 := by
  funext j
  obtain ⟨i, k, f, rfl⟩ : ∃ (i : Fin 4) (k : Fin 4096) (f : Fin 512), j = ix3 i k f := ⟨j 0, j 1, j 2, eq_ix3 j⟩
  rw [val_main_v0_apply, support_apply]
  refine Finset.sum_congr rfl fun d _ => ?_
  rw [lidx_support, ridx_support]

/-- The reference's result is the layer. -/
theorem val_eq_gcn (x0 : (⟨S4x4096x512, .f32⟩ : BufTy).Contents (Elt Ideal)) (x1 : (⟨S4x4096x4096, .f32⟩ : BufTy).Contents (Elt Ideal))
    (x2 : (⟨S512x512, .f32⟩ : BufTy).Contents (Elt Ideal)) (x3 : (⟨S512, .f32⟩ : BufTy).Contents (Elt Ideal)) :
    val_main_v4 (F := Ideal) x0 x1 x2 x3 = gcn x0 x1 x2 x3 := by
  funext j
  obtain ⟨i, n, f, rfl⟩ : ∃ (i : Fin 4) (n : Fin 4096) (f : Fin 512), j = ix3 i n f := ⟨j 0, j 1, j 2, eq_ix3 j⟩
  rw [val_main_v4_apply, val_main_v1_apply, val_main_v3_apply, val_main_v2_apply, val_support, idx_bias, gcn_apply,
    Ideal.addf_def]
  refine congrArg (· + x3 (ix1 f)) (Finset.sum_congr rfl fun k _ => ?_)
  rw [lidx_adj, ridx_adj]

end GraphConv.Reference

end
-- ==== Proof.lean ====
/-
  A graph-convolution layer, out[i] = adj[i] · (x[i] · W) + b over four graphs of 4096 nodes and 512 features, computed by one
  pipelined kernel against the two-einsum reference.

  The kernel walks a grid of (4 graphs) × (8 row tiles). It keeps x[i] · W in one of two scratch slots: the first grid
  point computes x[0] · W whole, and while graph i is processed each point also computes one 512-row slab of
  x[i + 1] · W into the other slot, so that the slot is complete when graph i + 1 begins. Every point then multiplies its
  512 × 4096 tile of adj[i] with the finished slot and adds the bias row. The x array is staged through two windows (the
  whole of x[0]; the slab of x[i + 1]), which hold it at half shares each.

  The proof: one run of the body per kind of grid point (first; pipelined; last graph); an invariant of the scratch
  between points — which slabs still read as written — kept by those runs and strong enough to name what each whole-slot
  read sees; the launch of the pipeline over that proof data, which gives the frames of the word-level and of the
  idealized kernel (the same text at the two float instances). At the ideal floats each matrix product is a plain sum,
  so the tile point (i, j) stores is rows [512 j, 512 j + 512) of
      out[i, n, f] = (∑ k, adj[i, n, k] · (∑ d, x[i, k, d] · W[d, f])) + b[f],
  the 32 tiles cover the result, and the reference's two contractions and broadcast bias are the same nested sums, index
  by index: no rearrangement of sums is needed, so the inputs' finiteness is never used. The idealization rewrote no
  operation, so there is nothing to preserve.
-/
import proofs.«104165_g71863392796808_cont_9to1_m_899_14_alg».proof.Defs
import proofs.«104165_g71863392796808_cont_9to1_m_899_14_alg».proof.Proof.Gen.Kernel
import proofs.«104165_g71863392796808_cont_9to1_m_899_14_alg».proof.Proof.Gen.KernelIdeal
import proofs.«104165_g71863392796808_cont_9to1_m_899_14_alg».proof.Proof.Gen.ReferenceIdeal
import proofs.«104165_g71863392796808_cont_9to1_m_899_14_alg».proof.Proof.Gen.Pre_finite_inputs
import proofs.«104165_g71863392796808_cont_9to1_m_899_14_alg».proof.Proof.Gen.ReferenceIdeal.Run
import proofs.«104165_g71863392796808_cont_9to1_m_899_14_alg».proof.Proof.RunW
import proofs.«104165_g71863392796808_cont_9to1_m_899_14_alg».proof.Proof.Value
import proofs.«104165_g71863392796808_cont_9to1_m_899_14_alg».proof.Proof.RefSide
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Proof.Kernel.frame (F := Bits) m ρ

/-- So does the idealized kernel. -/
theorem frame_ki : Cert.frame_KernelIdeal := fun m ρ _ => Cert.Proof.KernelIdeal.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal floats the kernel ends with the graph convolution of its arguments, and the reference's term is the same
    function of arguments that agree. -/
theorem algebraic : Cert.algebraic_KernelIdeal_ReferenceIdeal := by
  intro m ρ m' ρ' _ hagree
  refine ⟨fun c => Cert.Proof.KernelIdeal.Value.Gout m c, Cert.Proof.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, GraphConv.Reference.val_eq_gcn, (hagree c).1, (hagree c).2.1, (hagree c).2.2.1,
    (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
